-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x128 : Shape := ⟨3, ![256, 256, 128]⟩
abbrev S256x256x256 : Shape := ⟨3, ![256, 256, 256]⟩
abbrev S256 : Shape := ⟨1, ![256]⟩
abbrev S128x128 : Shape := ⟨2, ![128, 128]⟩
abbrev S512x256 : Shape := ⟨2, ![512, 256]⟩
abbrev S_ : Shape := ⟨0, ![]⟩

class Facts : Prop where
  bcast_S_S256x256x128 : S_.BroadcastsInDim S256x256x128 (![] : Fin 0 → Fin S256x256x128.rank)
  reducesTo_S256x256x128_S_d0_1_2 : S256x256x128.ReducesTo [0, 1, 2] S_
  h_S_ : 0 < S_.numel
  bcast_S_S256x256x256 : S_.BroadcastsInDim S256x256x256 (![] : Fin 0 → Fin S256x256x256.rank)
  reducesTo_S256x256x256_S_d0_1_2 : S256x256x256.ReducesTo [0, 1, 2] S_
  bcast_S_S128x128 : S_.BroadcastsInDim S128x128 (![] : Fin 0 → Fin S128x128.rank)
  reducesTo_S128x128_S_d0_1 : S128x128.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S256x256x128 .f32) (main_arg1 : FVec F S256x256x256 .f32) (main_arg2 : IVec S256 32) (main_arg3 : FVec F S128x128 .f32) (main_arg4 : FVec F S512x256 .f32) (main_arg5 : FVec F S256 .f32) : IVec S_ 1 :=
  let main_v0 : FVec F S256x256x128 .f32 := Host.absf main_arg0
  let main_cst : FVec F S_ .f32 := constant S_ .f32 0x7F800000#32
  let main_v1 : FVec F S256x256x128 .f32 := broadcastInDim S256x256x128 ![] bcast_S_S256x256x128 main_cst
  let main_v2 : IVec S256x256x128 1 := cmpf .olt main_v0 main_v1
  let main_c : IVec S_ 1 := constantI S_ 1 1#1
  let main_v3 : IVec S_ 1 := (fun x v => Host.reduce IntOp.andi x v reducesTo_S256x256x128_S_d0_1_2 h_S_) main_v2 main_c
  let main_v4 : FVec F S256x256x256 .f32 := Host.absf main_arg1
  let main_cst_0 : FVec F S_ .f32 := constant S_ .f32 0x7F800000#32
  let main_v5 : FVec F S256x256x256 .f32 := broadcastInDim S256x256x256 ![] bcast_S_S256x256x256 main_cst_0
  let main_v6 : IVec S256x256x256 1 := cmpf .olt main_v4 main_v5
  let main_c_1 : IVec S_ 1 := constantI S_ 1 1#1
  let main_v7 : IVec S_ 1 := (fun x v => Host.reduce IntOp.andi x v reducesTo_S256x256x256_S_d0_1_2 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_v13 main_v16
-- ==== Kernel.lean ====
abbrev S256x256x128 : Shape := ⟨3, ![256, 256, 128]⟩
abbrev S256x256x256 : Shape := ⟨3, ![256, 256, 256]⟩
abbrev S256 : Shape := ⟨1, ![256]⟩
abbrev S128x128 : Shape := ⟨2, ![128, 128]⟩
abbrev S512x256 : Shape := ⟨2, ![512, 256]⟩
abbrev S1x256 : Shape := ⟨2, ![1, 256]⟩
abbrev S256x1 : Shape := ⟨2, ![256, 1]⟩
abbrev S256x256 : Shape := ⟨2, ![256, 256]⟩
abbrev S256x256x1 : Shape := ⟨3, ![256, 256, 1]⟩
abbrev S_ : Shape := ⟨0, ![]⟩
abbrev S128x4x256 : Shape := ⟨3, ![128, 4, 256]⟩
abbrev S4x128x256 : Shape := ⟨3, ![4, 128, 256]⟩
abbrev S4x256x128 : Shape := ⟨3, ![4, 256, 128]⟩
abbrev S4x256x256 : Shape := ⟨3, ![4, 256, 256]⟩
abbrev S4x256x1 : Shape := ⟨3, ![4, 256, 1]⟩
abbrev S1024x128 : Shape := ⟨2, ![1024, 128]⟩
abbrev S4x256 : Shape := ⟨2, ![4, 256]⟩
abbrev S4x1x256 : Shape := ⟨3, ![4, 1, 256]⟩
abbrev S1x256x256 : Shape := ⟨3, ![1, 256, 256]⟩
abbrev S4x256x512 : Shape := ⟨3, ![4, 256, 512]⟩
abbrev S1024x512 : Shape := ⟨2, ![1024, 512]⟩
abbrev S1024x256 : Shape := ⟨2, ![1024, 256]⟩
abbrev S1x1x256 : Shape := ⟨3, ![1, 1, 256]⟩

abbrev nBuf : Space → Nat
  | .hbm => 26
  | .vmem => 14
  | .smem => 0
  | _ => 0

abbrev bufTy : (tb : Table) → Fin (tcTables nBuf tb) → BufTy
  | .hbm, ⟨0, _⟩ => ⟨S256x256x128, .f32⟩
  | .hbm, ⟨1, _⟩ => ⟨S256x256x256, .f32⟩
  | .hbm, ⟨2, _⟩ => ⟨S256, .i32⟩
  | .hbm, ⟨3, _⟩ => ⟨S128x128, .f32⟩
  | .hbm, ⟨4, _⟩ => ⟨S512x256, .f32⟩
  | .hbm, ⟨5, _⟩ => ⟨S256, .f32⟩
  | .hbm, ⟨6, _⟩ => ⟨S256, .i32⟩
  | .hbm, ⟨7, _⟩ => ⟨S1x256, .i32⟩
  | .hbm, ⟨8, _⟩ => ⟨S256x1, .i32⟩
  | .hbm, ⟨9, _⟩ => ⟨S256x256, .i32⟩
  | .hbm, ⟨10, _⟩ => ⟨S256x256, .i32⟩
  | .hbm, ⟨11, _⟩ => ⟨S256x256, .i1⟩
  | .hbm, ⟨12, _⟩ => ⟨S256x256, .f32⟩
  | .hbm, ⟨13, _⟩ => ⟨S256x256x1, .f32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i32⟩
  | .hbm, ⟨19, _⟩ => ⟨S256x256, .i1⟩
  | .hbm, ⟨20, _⟩ => ⟨S256x256, .f32⟩
  | .hbm, ⟨21, _⟩ => ⟨S128x4x256, .f32⟩
  | .hbm, ⟨22, _⟩ => ⟨S4x128x256, .f32⟩
  | .hbm, ⟨23, _⟩ => ⟨S512x256, .f32⟩
  | .hbm, ⟨24, _⟩ => ⟨S256x256x256, .f32⟩
  | .hbm, ⟨25, _⟩ => ⟨S256x256x256, .f32⟩
  | .local _ .vmem, ⟨0, _⟩ => ⟨S4x256x128, .f32⟩
  | .local _ .vmem, ⟨1, _⟩ => ⟨S4x256x128, .f32⟩
  | .local _ .vmem, ⟨2, _⟩ => ⟨S4x256x256, .f32⟩
  | .local _ .vmem, ⟨3, _⟩ => ⟨S4x256x256, .f32⟩
  | .local _ .vmem, ⟨4, _⟩ => ⟨S4x256x1, .f32⟩
  | .local _ .vmem, ⟨5, _⟩ => ⟨S4x256x1, .f32⟩
  | .local _ .vmem, ⟨6, _⟩ => ⟨S128x128, .f32⟩
  | .local _ .vmem, ⟨7, _⟩ => ⟨S256x256, .f32⟩
  | .local _ .vmem, ⟨8, _⟩ => ⟨S512x256, .f32⟩
  | .local _ .vmem, ⟨9, _⟩ => ⟨S256, .f32⟩
  | .local _ .vmem, ⟨10, _⟩ => ⟨S4x256x256, .f32⟩
  | .local _ .vmem, ⟨11, _⟩ => ⟨S4x256x256, .f32⟩
  | .local _ .vmem, ⟨12, _⟩ => ⟨S4x256x256, .f32⟩
  | .local _ .vmem, ⟨13, _⟩ => ⟨S4x256x256, .f32⟩
  | _, _ => ⟨S256x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S256_S1x256_1 : S256.BroadcastsInDim S1x256 (![1] : Fin 1 → Fin S1x256.rank)
  bcast_S256_S256x1_0 : S256.BroadcastsInDim S256x1 (![0] : Fin 1 → Fin S256x1.rank)
  bcast_S1x256_S256x256_0_1 : S1x256.BroadcastsInDim S256x256 (![0, 1] : Fin 2 → Fin S256x256.rank)
  bcast_S256x1_S256x256_0_1 : S256x1.BroadcastsInDim S256x256 (![0, 1] : Fin 2 → Fin S256x256.rank)
  bcast_S256x256_S256x256x1_0_1 : S256x256.BroadcastsInDim S256x256x1 (![0, 1] : Fin 2 → Fin S256x256x1.rank)
  bcast_S_S256x256 : S_.BroadcastsInDim S256x256 (![] : Fin 0 → Fin S256x256.rank)
  shapeCasts_S512x256_S128x4x256 : S512x256.ShapeCasts S128x4x256
  transposes_S128x4x256_S4x128x256_1_0_2 : S128x4x256.Transposes [1, 0, 2] S4x128x256
  shapeCasts_S4x128x256_S512x256 : S4x128x256.ShapeCasts S512x256
  inb_S4x256x128_S4x256x128_0_0_0 : ∀ a, (![0, 0, 0] : Fin 3 → Nat) a + S4x256x128.size a ≤ S4x256x128.size a
  h_S4x256x128 : 0 < S4x256x128.numel
  inb_S4x256x256_S4x256x256_0_0_0 : ∀ a, (![0, 0, 0] : Fin 3 → Nat) a + S4x256x256.size a ≤ S4x256x256.size a
  h_S4x256x256 : 0 < S4x256x256.numel
  inb_S4x256x1_S4x256x1_0_0_0 : ∀ a, (![0, 0, 0] : Fin 3 → Nat) a + S4x256x1.size a ≤ S4x256x1.size a
  h_S4x256x1 : 0 < S4x256x1.numel
  shapeCasts_S4x256x1_S4x256x1 : S4x256x1.ShapeCasts S4x256x1
  inb_S128x128_S128x128_0_0 : ∀ a, (![0, 0] : Fin 2 → Nat) a + S128x128.size a ≤ S128x128.size a
  h_S128x128 : 0 < S128x128.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  broadcasts_S4x256x1_S4x256x128 : S4x256x1.Broadcasts S4x256x128
  shapeCasts_S4x256x128_S1024x128 : S4x256x128.ShapeCasts S1024x128
  shapeCasts_S1024x128_S4x256x128 : S1024x128.ShapeCasts S4x256x128
  reduces_S4x256x128_S4x256 : S4x256x128.Reduces [2] S4x256
  shapeCasts_S4x256_S4x256x1 : S4x256.ShapeCasts S4x256x1
  transposes_S4x256x1_p0_2_1_S4x1x256 : S4x256x1.Transposes [0, 2, 1] S4x1x256
  broadcasts_S4x256x1_S4x256x256 : S4x256x1.Broadcasts S4x256x256
  broadcasts_S4x1x256_S4x256x256 : S4x1x256.Broadcasts S4x256x256
  shapeCasts_S256x256_S1x256x256 : S256x256.ShapeCasts S1x256x256
  shapeCasts_S1x256x256_S1x256x256 : S1x256x256.ShapeCasts S1x256x256
  broadcasts_S1x256x256_S4x256x256 : S1x256x256.Broadcasts S4x256x256
  reduces_S4x256x256_S4x256 : S4x256x256.Reduces [2] S4x256
  concatenates_S4x256x128_S4x256x128_S4x256x128_S4x256x128_S4x256x512_d2 : Shape.Concatenates [S4x256x128, S4x256x128, S4x256x128, S4x256x128] S4x256x512 2
  shapeCasts_S4x256x512_S1024x512 : S4x256x512.ShapeCasts S1024x512
  shapeCasts_S1024x256_S4x256x256 : S1024x256.ShapeCasts S4x256x256
  shapeCasts_S256_S1x1x256 : S256.ShapeCasts S1x1x256
  broadcasts_S1x1x256_S4x256x256 : S1x1x256.Broadcasts S4x256x256
  dot_S1024x128_S128x128_S1024x128_1_0_0_1_n_n_wf : DotDims.WF S1024x128 S128x128 S1024x128 [1] [0] [0] [1] [] []
  dot_S4x256x128_S4x256x128_S4x256x256_2_2_1_1_0_0_wf : DotDims.WF S4x256x128 S4x256x128 S4x256x256 [2] [2] [1] [1] [0] [0]
  dot_S4x256x256_S4x256x128_S4x256x128_2_1_1_2_0_0_wf : DotDims.WF S4x256x256 S4x256x128 S4x256x128 [2] [1] [1] [2] [0] [0]
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x128.size a ≤ S256x256x128.size a
  hwx0_0 : ∀ i : grid0.Coords, EltTy.bits .f32 = 32 ∨ (Rect.block (s := S256x256x128) S4x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x256.size a ≤ S256x256x256.size a
  hwx0_1 : ∀ i : grid0.Coords, EltTy.bits .f32 = 32 ∨ (Rect.block (s := S256x256x256) S4x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x1.size a ≤ S256x256x1.size a
  hwx0_2 : ∀ i : grid0.Coords, EltTy.bits .f32 = 32 ∨ (Rect.block (s := S256x256x1) S4x256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .f32 = 32 ∨ (Rect.block (s := S512x256) S512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x256x256.size a ≤ S256x256x256.size a
  hwx0_7 : ∀ i : grid0.Coords, EltTy.bits .f32 = 32 ∨ (Rect.block (s := S256x256x256) S4x256x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4x256x256.size a ≤ S256x256x256.size a
  hwx0_8 : ∀ i : grid0.Coords, EltTy.bits .f32 = 32 ∨ (Rect.block (s := S256x256x256) S4x256x256.size (cc0_transform_8 i) (hinb0_8 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S4x256x128_S4x256x128_S4x256x256_2_2_1_1_0_0 : DotDims S4x256x128 S4x256x128 S4x256x256 where
  lhsContracting := [2]
  rhsContracting := [2]
  lhsNonContracting := [1]
  rhsNonContracting := [1]
  lhsBatch := [0]
  rhsBatch := [0]
  wf := dot_S4x256x128_S4x256x128_S4x256x256_2_2_1_1_0_0_wf
def dot_S4x256x256_S4x256x128_S4x256x128_2_1_1_2_0_0 : DotDims S4x256x256 S4x256x128 S4x256x128 where
  lhsContracting := [2]
  rhsContracting := [1]
  lhsNonContracting := [1]
  rhsNonContracting := [2]
  lhsBatch := [0]
  rhsBatch := [0]
  wf := dot_S4x256x256_S4x256x128_S4x256x128_2_1_1_2_0_0_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S4x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17_0) S4x256x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v17_1) S4x256x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S256x256x128 : Shape := ⟨3, ![256, 256, 128]⟩
abbrev S256x256x256 : Shape := ⟨3, ![256, 256, 256]⟩
abbrev S256 : Shape := ⟨1, ![256]⟩
abbrev S128x128 : Shape := ⟨2, ![128, 128]⟩
abbrev S512x256 : Shape := ⟨2, ![512, 256]⟩
abbrev S1x256 : Shape := ⟨2, ![1, 256]⟩
abbrev S256x1 : Shape := ⟨2, ![256, 1]⟩
abbrev S256x256 : Shape := ⟨2, ![256, 256]⟩
abbrev S256x256x1 : Shape := ⟨3, ![256, 256, 1]⟩
abbrev S_ : Shape := ⟨0, ![]⟩
abbrev S256x1x256 : Shape := ⟨3, ![256, 1, 256]⟩
abbrev S1x256x256 : Shape := ⟨3, ![1, 256, 256]⟩
abbrev S256x256x128x1 : Shape := ⟨4, ![256, 256, 128, 1]⟩
abbrev S256x256x128x4 : Shape := ⟨4, ![256, 256, 128, 4]⟩
abbrev S256x256x512 : Shape := ⟨3, ![256, 256, 512]⟩
abbrev S1x1x256 : Shape := ⟨3, ![1, 1, 256]⟩

abbrev nBuf : Space → Nat
  | .hbm => 124
  | .vmem => 0
  | .smem => 0
  | _ => 0

abbrev bufTy : (tb : Table) → Fin (tcTables nBuf tb) → BufTy
  | .hbm, ⟨0, _⟩ => ⟨S256x256x128, .f32⟩
  | .hbm, ⟨1, _⟩ => ⟨S256x256x256, .f32⟩
  | .hbm, ⟨2, _⟩ => ⟨S256, .i32⟩
  | .hbm, ⟨3, _⟩ => ⟨S128x128, .f32⟩
  | .hbm, ⟨4, _⟩ => ⟨S512x256, .f32⟩
  | .hbm, ⟨5, _⟩ => ⟨S256, .f32⟩
  | .hbm, ⟨6, _⟩ => ⟨S256, .i32⟩
  | .hbm, ⟨7, _⟩ => ⟨S1x256, .i32⟩
  | .hbm, ⟨8, _⟩ => ⟨S256x1, .i32⟩
  | .hbm, ⟨9, _⟩ => ⟨S256x256, .i32⟩
  | .hbm, ⟨10, _⟩ => ⟨S256x256, .i32⟩
  | .hbm, ⟨11, _⟩ => ⟨S256x256, .i1⟩
  | .hbm, ⟨12, _⟩ => ⟨S256x256, .f32⟩
  | .hbm, ⟨13, _⟩ => ⟨S256x256x1, .f32⟩
  | .hbm, ⟨14, _⟩ => ⟨S256x256x128, .f32⟩
  | .hbm, ⟨15, _⟩ => ⟨S256x256x128, .f32⟩
  | .hbm, ⟨16, _⟩ => ⟨S256x256x128, .f32⟩
  | .hbm, ⟨17, _⟩ => ⟨S256x256x128, .f32⟩
  | .hbm, ⟨18, _⟩ => ⟨S_, .f32⟩
  | .hbm, ⟨19, _⟩ => ⟨S256x256, .f32⟩
  | .hbm, ⟨20, _⟩ => ⟨S256x256x1, .f32⟩
  | .hbm, ⟨21, _⟩ => ⟨S256x1x256, .f32⟩
  | .hbm, ⟨22, _⟩ => ⟨S256x256x256, .f32⟩
  | .hbm, ⟨23, _⟩ => ⟨S256x256x256, .f32⟩
  | .hbm, ⟨24, _⟩ => ⟨S256x256x256, .f32⟩
  | .hbm, ⟨25, _⟩ => ⟨S256x256x256, .f32⟩
  | .hbm, ⟨26, _⟩ => ⟨S_, .f32⟩
  | .hbm, ⟨27, _⟩ => ⟨S256x256x256, .f32⟩
  | .hbm, ⟨28, _⟩ => ⟨S256x256x256, .f32⟩
  | .hbm, ⟨29, _⟩ => ⟨S256x256x256, .f32⟩
  | .hbm, ⟨30, _⟩ => ⟨S256x256, .i32⟩
  | .hbm, ⟨31, _⟩ => ⟨S256x256, .i32⟩
  | .hbm, ⟨32, _⟩ => ⟨S_, .i32⟩
  | .hbm, ⟨33, _⟩ => ⟨S256x256, .i32⟩
  | .hbm, ⟨34, _⟩ => ⟨S256x256, .i32⟩
  | .hbm, ⟨35, _⟩ => ⟨S256x256, .i1⟩
  | .hbm, ⟨36, _⟩ => ⟨S256x256, .f32⟩
  | .hbm, ⟨37, _⟩ => ⟨S256x256x1, .f32⟩
  | .hbm, ⟨38, _⟩ => ⟨S256x1x256, .f32⟩
  | .hbm, ⟨39, _⟩ => ⟨S256x256x256, .f32⟩
  | .hbm, ⟨40, _⟩ => ⟨S256x256x256, .f32⟩
  | .hbm, ⟨41, _⟩ => ⟨S256x256x256, .f32⟩
  | .hbm, ⟨42, _⟩ => ⟨S_, .f32⟩
  | .hbm, ⟨43, _⟩ => ⟨S256x256, .f32⟩
  | .hbm, ⟨44, _⟩ => ⟨S256x256, .f32⟩
  | .hbm, ⟨45, _⟩ => ⟨S1x256x256, .f32⟩
  | .hbm, ⟨46, _⟩ => ⟨S256x256x256, .f32⟩
  | .hbm, ⟨47, _⟩ => ⟨S256x256x256, .f32⟩
  | .hbm, ⟨48, _⟩ => ⟨S_, .f32⟩
  | .hbm, ⟨49, _⟩ => ⟨S256x256x256, .f32⟩
  | .hbm, ⟨50, _⟩ => ⟨S256x256x256, .i1⟩
  | .hbm, ⟨51, _⟩ => ⟨S_, .f32⟩
  | .hbm, ⟨52, _⟩ => ⟨S256x256x256, .f32⟩
  | .hbm, ⟨53, _⟩ => ⟨S256x256x256, .f32⟩
  | .hbm, ⟨54, _⟩ => ⟨S_, .f32⟩
  | .hbm, ⟨55, _⟩ => ⟨S_, .f32⟩
  | .hbm, ⟨56, _⟩ => ⟨S256x256x256, .f32⟩
  | .hbm, ⟨57, _⟩ => ⟨S256x256x256, .f32⟩
  | .hbm, ⟨58, _⟩ => ⟨S256x256x256, .f32⟩
  | .hbm, ⟨59, _⟩ => ⟨S256x256x256, .f32⟩
  | .hbm, ⟨60, _⟩ => ⟨S256x256x256, .f32⟩
  | .hbm, ⟨61, _⟩ => ⟨S256x256x256, .f32⟩
  | .hbm, ⟨62, _⟩ => ⟨S_, .f32⟩
  | .hbm, ⟨63, _⟩ => ⟨S256x256, .f32⟩
  | .hbm, ⟨64, _⟩ => ⟨S_, .f32⟩
  | .hbm, ⟨65, _⟩ => ⟨S256x256, .f32⟩
  | .hbm, ⟨66, _⟩ => ⟨S256x256, .f32⟩
  | .hbm, ⟨67, _⟩ => ⟨S_, .f32⟩
  | .hbm, ⟨68, _⟩ => ⟨S256x256, .f32⟩
  | .hbm, ⟨69, _⟩ => ⟨S256x256, .i1⟩
  | .hbm, ⟨70, _⟩ => ⟨S256x256, .f32⟩
  | .hbm, ⟨71, _⟩ => ⟨S_, .f32⟩
  | .hbm, ⟨72, _⟩ => ⟨S256x256, .f32⟩
  | .hbm, ⟨73, _⟩ => ⟨S256x256, .f32⟩
  | .hbm, ⟨74, _⟩ => ⟨S_, .f32⟩
  | .hbm, ⟨75, _⟩ => ⟨S_, .f32⟩
  | .hbm, ⟨76, _⟩ => ⟨S256x256, .f32⟩
  | .hbm, ⟨77, _⟩ => ⟨S256x256, .f32⟩
  | .hbm, ⟨78, _⟩ => ⟨S1x256x256, .f32⟩
  | .hbm, ⟨79, _⟩ => ⟨S256x256x1, .f32⟩
  | .hbm, ⟨80, _⟩ => ⟨S256x256x256, .f32⟩
  | .hbm, ⟨81, _⟩ => ⟨S256x256x256, .f32⟩
  | .hbm, ⟨82, _⟩ => ⟨S256x256x256, .f32⟩
  | .hbm, ⟨83, _⟩ => ⟨S256x256x1, .f32⟩
  | .hbm, ⟨84, _⟩ => ⟨S256x256x256, .f32⟩
  | .hbm, ⟨85, _⟩ => ⟨S256x256x256, .f32⟩
  | .hbm, ⟨86, _⟩ => ⟨S256x1x256, .f32⟩
  | .hbm, ⟨87, _⟩ => ⟨S256x256x256, .f32⟩
  | .hbm, ⟨88, _⟩ => ⟨S256x256x256, .f32⟩
  | .hbm, ⟨89, _⟩ => ⟨S256x256x256, .f32⟩
  | .hbm, ⟨90, _⟩ => ⟨S256x256x1, .f32⟩
  | .hbm, ⟨91, _⟩ => ⟨S256x1x256, .f32⟩
  | .hbm, ⟨92, _⟩ => ⟨S256x256x256, .f32⟩
  | .hbm, ⟨93, _⟩ => ⟨S256x256x256, .f32⟩
  | .hbm, ⟨94, _⟩ => ⟨S256x256x256, .f32⟩
  | .hbm, ⟨95, _⟩ => ⟨S256x256x256, .f32⟩
  | .hbm, ⟨96, _⟩ => ⟨S256x256x256, .f32⟩
  | .hbm, ⟨97, _⟩ => ⟨S256x256x128, .f32⟩
  | .hbm, ⟨98, _⟩ => ⟨S256x256x128, .f32⟩
  | .hbm, ⟨99, _⟩ => ⟨S_, .f32⟩
  | .hbm, ⟨100, _⟩ => ⟨S256x256x128, .f32⟩
  | .hbm, ⟨101, _⟩ => ⟨S256x256x128, .f32⟩
  | .hbm, ⟨102, _⟩ => ⟨S256x256x128, .f32⟩
  | .hbm, ⟨103, _⟩ => ⟨S256x256x128, .f32⟩
  | .hbm, ⟨104, _⟩ => ⟨S_, .f32⟩
  | .hbm, ⟨105, _⟩ => ⟨S256x256x128, .f32⟩
  | .hbm, ⟨106, _⟩ => ⟨S256x256x128, .f32⟩
  | .hbm, ⟨107, _⟩ => ⟨S256x256x128, .f32⟩
  | .hbm, ⟨108, _⟩ => ⟨S256x256x128x1, .f32⟩
  | .hbm, ⟨109, _⟩ => ⟨S256x256x128x1, .f32⟩
  | .hbm, ⟨110, _⟩ => ⟨S256x256x128x1, .f32⟩
  | .hbm, ⟨111, _⟩ => ⟨S256x256x128x1, .f32⟩
  | .hbm, ⟨112, _⟩ => ⟨S256x256x128x4, .f32⟩
  | .hbm, ⟨113, _⟩ => ⟨S256x256x512, .f32⟩
  | .hbm, ⟨114, _⟩ => ⟨S256x256x256, .f32⟩
  | .hbm, ⟨115, _⟩ => ⟨S1x1x256, .f32⟩
  | .hbm, ⟨116, _⟩ => ⟨S256x256x256, .f32⟩
  | .hbm, ⟨117, _⟩ => ⟨S256x256x256, .f32⟩
  | .hbm, ⟨118, _⟩ => ⟨S256x256x1, .f32⟩
  | .hbm, ⟨119, _⟩ => ⟨S256x256x256, .f32⟩
  | .hbm, ⟨120, _⟩ => ⟨S256x256x256, .f32⟩
  | .hbm, ⟨121, _⟩ => ⟨S_, .f32⟩
  | .hbm, ⟨122, _⟩ => ⟨S256x256x256, .f32⟩
  | .hbm, ⟨123, _⟩ => ⟨S256x256x256, .f32⟩
  | _, _ => ⟨S256x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_1 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_call0_v0 : Ref sig .tc := ⟨.hbm, 55, rfl⟩
abbrev main_call0_v1 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_call1_v0 : Ref sig .tc := ⟨.hbm, 75, rfl⟩
abbrev main_call1_v1 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_10 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_11 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_call2_cst : Ref sig .tc := ⟨.hbm, 121, rfl⟩
abbrev main_call2_v0 : Ref sig .tc := ⟨.hbm, 122, rfl⟩
abbrev main_v97 : Ref sig .tc := ⟨.hbm, 123, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S256_S256x1_0 : S256.BroadcastsInDim S256x1 (![0] : Fin 1 → Fin S256x1.rank)
  bcast_S1x256_S256x256_0_1 : S1x256.BroadcastsInDim S256x256 (![0, 1] : Fin 2 → Fin S256x256.rank)
  bcast_S256x1_S256x256_0_1 : S256x1.BroadcastsInDim S256x256 (![0, 1] : Fin 2 → Fin S256x256.rank)
  bcast_S256x256_S256x256x1_0_1 : S256x256.BroadcastsInDim S256x256x1 (![0, 1] : Fin 2 → Fin S256x256x1.rank)
  bcast_S256x256x1_S256x256x128_0_1_2 : S256x256x1.BroadcastsInDim S256x256x128 (![0, 1, 2] : Fin 3 → Fin S256x256x128.rank)
  reducesTo_S256x256x128_S256x256_d2 : S256x256x128.ReducesTo [2] S256x256
  h_S_ : 0 < S_.numel
  bcast_S256x256_S256x1x256_0_2 : S256x256.BroadcastsInDim S256x1x256 (![0, 2] : Fin 2 → Fin S256x1x256.rank)
  bcast_S256x256x1_S256x256x256_0_1_2 : S256x256x1.BroadcastsInDim S256x256x256 (![0, 1, 2] : Fin 3 → Fin S256x256x256.rank)
  bcast_S256x1x256_S256x256x256_0_1_2 : S256x1x256.BroadcastsInDim S256x256x256 (![0, 1, 2] : Fin 3 → Fin S256x256x256.rank)
  bcast_S_S256x256x256 : S_.BroadcastsInDim S256x256x256 (![] : Fin 0 → Fin S256x256x256.rank)
  bcast_S_S256x256 : S_.BroadcastsInDim S256x256 (![] : Fin 0 → Fin S256x256.rank)
  bcast_S256x256_S1x256x256_1_2 : S256x256.BroadcastsInDim S1x256x256 (![1, 2] : Fin 2 → Fin S1x256x256.rank)
  bcast_S1x256x256_S256x256x256_0_1_2 : S1x256x256.BroadcastsInDim S256x256x256 (![0, 1, 2] : Fin 3 → Fin S256x256x256.rank)
  reducesTo_S256x256x256_S256x256_d1 : S256x256x256.ReducesTo [1] S256x256
  bcast_S_S256x256x128 : S_.BroadcastsInDim S256x256x128 (![] : Fin 0 → Fin S256x256x128.rank)
  bcast_S256x256x128_S256x256x128x1_0_1_2 : S256x256x128.BroadcastsInDim S256x256x128x1 (![0, 1, 2] : Fin 3 → Fin S256x256x128x1.rank)
  concatenates_S256x256x128x1_S256x256x128x1_S256x256x128x1_S256x256x128x1_S256x256x128x4_d3 : Shape.Concatenates [S256x256x128x1, S256x256x128x1, S256x256x128x1, S256x256x128x1] S256x256x128x4 3
  shapeCasts_S256x256x128x4_S256x256x512 : S256x256x128x4.ShapeCasts S256x256x512
  bcast_S256_S1x1x256_2 : S256.BroadcastsInDim S1x1x256 (![2] : Fin 1 → Fin S1x1x256.rank)
  bcast_S1x1x256_S256x256x256_0_1_2 : S1x1x256.BroadcastsInDim S256x256x256 (![0, 1, 2] : Fin 3 → Fin S256x256x256.rank)
  dot_S256x256x128_S128x128_S256x256x128_2_0_01_1_n_n_wf : DotDims.WF S256x256x128 S128x128 S256x256x128 [2] [0] [0, 1] [1] [] []
  dot_S256x256x128_S256x256x128_S256x256x256_2_2_1_1_0_0_wf : DotDims.WF S256x256x128 S256x256x128 S256x256x256 [2] [2] [1] [1] [0] [0]
  dot_S256x256x256_S256x256x128_S256x256x128_2_1_1_2_0_0_wf : DotDims.WF S256x256x256 S256x256x128 S256x256x128 [2] [1] [1] [2] [0] [0]
  dot_S256x256x512_S512x256_S256x256x256_2_0_01_1_n_n_wf : DotDims.WF S256x256x512 S512x256 S256x256x256 [2] [0] [0, 1] [1] [] []

variable [Facts₀]

def dot_S256x256x128_S128x128_S256x256x128_2_0_01_1_n_n : DotDims S256x256x128 S128x128 S256x256x128 where
  lhsContracting := [2]
  rhsContracting := [0]
  lhsNonContracting := [0, 1]
  rhsNonContracting := [1]
  lhsBatch := []
  rhsBatch := []
  wf := dot_S256x256x128_S128x128_S256x256x128_2_0_01_1_n_n_wf
def dot_S256x256x128_S256x256x128_S256x256x256_2_2_1_1_0_0 : DotDims S256x256x128 S256x256x128 S256x256x256 where
  lhsContracting := [2]
  rhsContracting := [2]
  lhsNonContracting := [1]
  rhsNonContracting := [1]
  lhsBatch := [0]
  rhsBatch := [0]
  wf := dot_S256x256x128_S256x256x128_S256x256x256_2_2_1_1_0_0_wf
def dot_S256x256x256_S256x256x128_S256x256x128_2_1_1_2_0_0 : DotDims S256x256x256 S256x256x128 S256x256x128 where
  lhsContracting := [2]
  rhsContracting := [1]
  lhsNonContracting := [1]
  rhsNonContracting := [2]
  lhsBatch := [0]
  rhsBatch := [0]
  wf := dot_S256x256x256_S256x256x128_S256x256x128_2_1_1_2_0_0_wf
def dot_S256x256x512_S512x256_S256x256x256_2_0_01_1_n_n : DotDims S256x256x512 S512x256 S256x256x256 where
  lhsContracting := [2]
  rhsContracting := [0]
  lhsNonContracting := [0, 1]
  rhsNonContracting := [1]
  lhsBatch := []
  rhsBatch := []
  wf := dot_S256x256x512_S512x256_S256x256x256_2_0_01_1_n_n_wf

class Facts : Prop extends Facts₀ where

variable [Facts]
-- ==== Proof.Spec.lean ====
/-
  The mathematics both programs compute, stated once over plain coordinates.

  For every molecule `b` (256 of them, 256 atom slots each, 128 features per atom) the layer
    * masks the padding atoms:  xm b n f = X(b,n,f) · mask b n, where mask b n is 1 when n is below the atom
      count of molecule b and 0 otherwise;
    * learns a graph from a Mahalanobis distance: xw = xm · M, d2 i j = |xw i|² + |xw j|² − 2 ⟨xw i, xw j⟩,
      the affinity  aff i j = exp(−√(max d2 floor)) on the valid off-diagonal pairs and 0 elsewhere,
      the degree  deg i = ∑ⱼ aff i j + tiny, its inverse square root dinv (0 on padding), and the normalised
      Laplacian  lapl i j = δ i j · mask i − dinv i · aff i j · dinv j;
    * adds the given Laplacian on the valid pairs: lfull = lapl + Lap · (mask i · mask j);
    * runs three steps of the Chebyshev recurrence c₀ = xm, c₁ = L c₀, cₖ = 2 L cₖ₋₁ − cₖ₋₂;
    * projects the four orders with one weight matrix whose row index is 4·f + k, adds the bias, masks and clamps
      at zero.
  The two results are `out` and `lapl`. Every function below takes the argument arrays as functions on their index
  types and is read at explicit coordinates; the literals stay as the float words both programs carry.
-/
import Idealize.ShloMosaic.PureOps.Ideal
import Idealize.ShloMosaic.Lib.ValueIdx

noncomputable section

namespace Cert.GraphConv

open Idealize.ShloMosaic Idealize.ShloMosaic.ValueIdx

variable (X : (⟨3, ![256, 256, 128]⟩ : Shape).Idx → EReal) (Lap : (⟨3, ![256, 256, 256]⟩ : Shape).Idx → EReal)
  (Cnt : (⟨1, ![256]⟩ : Shape).Idx → BitVec 32) (Met : (⟨2, ![128, 128]⟩ : Shape).Idx → EReal)
  (Wt : (⟨2, ![512, 256]⟩ : Shape).Idx → EReal) (Bias : (⟨1, ![256]⟩ : Shape).Idx → EReal)

/-- 1 on the atoms of molecule `b` (slot `n` below the molecule's atom count), 0 on its padding. -/
def mask (b n : Fin 256) : EReal :=
  FloatOps.uitofp (F := Ideal) .f32 (IntOp.cmpi .slt (BitVec.ofNat 32 n.val) (Cnt (ix1 b)))

/-- The identity pattern: 1 on the diagonal, 0 off it. -/
def eye (i j : Fin 256) : EReal :=
  FloatOps.uitofp (F := Ideal) .f32 (IntOp.cmpi .eq (IntOp.addi (BitVec.ofNat 32 i.val) 0#32) (BitVec.ofNat 32 j.val))

/-- The masked features. -/
def xm (b n : Fin 256) (f : Fin 128) : EReal := X (ix3 b n f) * mask Cnt b n

/-- The features in the learned metric: a row of `xm` times the metric matrix. -/
def xw (b n : Fin 256) (g : Fin 128) : EReal := ∑ f : Fin 128, xm X Cnt b n f * Met (ix2 f g)

/-- Squared length of a transformed row. -/
def sq (b n : Fin 256) : EReal := ∑ g : Fin 128, xw X Cnt Met b n g * xw X Cnt Met b n g

/-- Inner product of two transformed rows. -/
def gram (b i j : Fin 256) : EReal := ∑ g : Fin 128, xw X Cnt Met b i g * xw X Cnt Met b j g

/-- Squared distance between two transformed rows. -/
def d2 (b i j : Fin 256) : EReal :=
  (sq X Cnt Met b i + sq X Cnt Met b j) - Ideal.ofBits .f32 0x40000000#32 * gram X Cnt Met b i j

/-- Both atoms real. -/
def mm (b i j : Fin 256) : EReal := mask Cnt b i * mask Cnt b j

/-- Both atoms real and distinct. -/
def off (b i j : Fin 256) : EReal := mm Cnt b i j * (Ideal.ofBits .f32 0x3F800000#32 - eye i j)

/-- The squared distance floored on the valid pairs, 1 elsewhere. -/
def d2s (b i j : Fin 256) : EReal :=
  Scalar.select (FloatOps.cmpf (F := Ideal) .ogt (off Cnt b i j) (Ideal.ofBits .f32 0x00000000#32))
    (max (d2 X Cnt Met b i j) (Ideal.ofBits .f32 0x2B8CBCCC#32)) (Ideal.ofBits .f32 0x3F800000#32)

/-- The affinity exp(−distance) on the valid pairs, 0 elsewhere. -/
def aff (b i j : Fin 256) : EReal :=
  Ideal.exp (Ideal.ofBits .f32 0x00000000#32 - Ideal.sqrt (d2s X Cnt Met b i j)) * off Cnt b i j

/-- The degree of atom `i`: its row of affinities summed, plus the smallest positive float. -/
def deg (b i : Fin 256) : EReal := (∑ j : Fin 256, aff X Cnt Met b i j) + Ideal.ofBits .f32 0x00000001#32

/-- Inverse square root of the degree on the real atoms, 0 on padding. -/
def dinv (b i : Fin 256) : EReal :=
  Scalar.select (FloatOps.cmpf (F := Ideal) .ogt (mask Cnt b i) (Ideal.ofBits .f32 0x00000000#32))
    (Ideal.rsqrt (deg X Cnt Met b i)) (Ideal.ofBits .f32 0x00000000#32)

/-- The learned, symmetrically normalised Laplacian: the second result. -/
def lapl (b i j : Fin 256) : EReal :=
  eye i j * mask Cnt b i - (dinv X Cnt Met b i * aff X Cnt Met b i j) * dinv X Cnt Met b j

/-- The Laplacian used by the recurrence: the learned one plus the given one on the valid pairs. -/
def lfull (b i j : Fin 256) : EReal := lapl X Cnt Met b i j + Lap (ix3 b i j) * mm Cnt b i j

/-- First Chebyshev order: L · xm. -/
def c1 (b i : Fin 256) (f : Fin 128) : EReal := ∑ j : Fin 256, lfull X Lap Cnt Met b i j * xm X Cnt b j f

/-- Second order: 2 L c₁ − c₀. -/
def c2 (b i : Fin 256) (f : Fin 128) : EReal :=
  Ideal.ofBits .f32 0x40000000#32 * (∑ j : Fin 256, lfull X Lap Cnt Met b i j * c1 X Lap Cnt Met b j f) - xm X Cnt b i f

/-- Third order: 2 L c₂ − c₁. -/
def c3 (b i : Fin 256) (f : Fin 128) : EReal :=
  Ideal.ofBits .f32 0x40000000#32 * (∑ j : Fin 256, lfull X Lap Cnt Met b i j * c2 X Lap Cnt Met b j f) - c1 X Lap Cnt Met b i f

/-- The four orders as one family. -/
def cheb (b i : Fin 256) (k : Fin 4) (f : Fin 128) : EReal :=
  match k with
  | 0 => xm X Cnt b i f
  | 1 => c1 X Lap Cnt Met b i f
  | 2 => c2 X Lap Cnt Met b i f
  | 3 => c3 X Lap Cnt Met b i f

/-- The projection: row `d = 4·f + k` of the weight matrix meets order `k` of feature `f`. -/
def proj (b i o : Fin 256) : EReal :=
  ∑ d : Fin 512, cheb X Lap Cnt Met b i ⟨d.val % 4, Nat.mod_lt _ (by decide)⟩ ⟨d.val / 4, by have := d.isLt; omega⟩ * Wt (ix2 d o)

/-- The first result: projection plus bias, masked, clamped at zero. -/
def out (b i o : Fin 256) : EReal :=
  max ((proj X Lap Cnt Met Wt b i o + Bias (ix1 o)) * mask Cnt b i) (Ideal.ofBits .f32 0x00000000#32)

end Cert.GraphConv

end
-- ==== Proof.RegionInputs.lean ====
/-
  Three of the kernel's operands are not arguments but arrays the host computes before the launch: the mask as a column
  (an iota compared with each molecule's atom count, turned into a float), the identity pattern (two iotas compared),
  and the weight matrix with its rows regrouped (row 128·k + f of the regrouped matrix is row 4·f + k of the weights:
  a reshape to [128, 4, 256], a swap of the first two axes, a reshape back). This module reads each of them, as the
  launch finds it, at an index.
-/
import proofs.«113123_j64510408786278_2_alg».proof.Proof.Gen.KernelIdeal.Frame
import proofs.«113123_j64510408786278_2_alg».proof.Proof.Spec
import Idealize.ShloMosaic.Lib.ValueIdx
import Idealize.ShloMosaic.Lib.Pipeline.Value
import Idealize.ShloMosaic.Lib.StableHlo.Run

noncomputable section

namespace Cert.GraphConv.Found

open Idealize.ShloMosaic Idealize.ShloMosaic.ValueIdx Idealize.ShloMosaic.TcCoe Idealize.SL.Sem
open Cert.KernelIdeal Cert.KernelIdeal.Gen Cert.GraphConv

variable (m : (ℓ : Loc nD τ sig) → Buf (Elt Ideal) ℓ)

/-- The mask column the launch finds, at (b, n, ·), is molecule b's mask at atom n. -/
theorem found_mask (c : Dev nD) (b n : Fin 256) :
    (V m c main_v7 : S256x256x1.Idx → EReal) (ix3 b n (0 : Fin 1)) = mask (m ((c : Thread nD τ).loc main_arg2)) b n := by
  have e : (V m c main_v7 : S256x256x1.Idx → EReal)
      = broadcastInDim S256x256x1 ![0, 1] bcast_S256x256_S256x256x1_0_1
          (uitofp (F := Ideal) .f32 (cmpi .slt
            (broadcastInDim S256x256 ![0, 1] bcast_S1x256_S256x256_0_1
              (broadcastInDim S1x256 ![1] bcast_S256_S1x256_1 (iotaInDim S256 32 0)))
            (broadcastInDim S256x256 ![0, 1] bcast_S256x1_S256x256_0_1
              (broadcastInDim S256x1 ![0] bcast_S256_S256x1_0 (m ((c : Thread nD τ).loc main_arg2)))))) := by
    dsimp only [Gen.V, Gen.hostOps0]; after_results
  rw [e]
  rw [broadcastInDim_apply _ bcast_S256x256_S256x256x1_0_1 _ (ix3 b n (0 : Fin 1)) (ix2 b n) (fun a => match a with
    | ⟨0, _⟩ => by show b.val = if (256 : Nat) = 1 then 0 else b.val; rw [if_neg (by decide)]
    | ⟨1, _⟩ => by show n.val = if (256 : Nat) = 1 then 0 else n.val; rw [if_neg (by decide)])]
  show FloatOps.uitofp (F := Ideal) .f32 (IntOp.cmpi .slt
      (broadcastInDim S256x256 ![0, 1] bcast_S1x256_S256x256_0_1
        (broadcastInDim S1x256 ![1] bcast_S256_S1x256_1 (iotaInDim S256 32 0)) (ix2 b n))
      (broadcastInDim S256x256 ![0, 1] bcast_S256x1_S256x256_0_1
        (broadcastInDim S256x1 ![0] bcast_S256_S256x1_0 (m ((c : Thread nD τ).loc main_arg2))) (ix2 b n))) = _
  rw [broadcastInDim_apply _ bcast_S1x256_S256x256_0_1 _ (ix2 b n) (ix2 (0 : Fin 1) n) (fun a => match a with
    | ⟨0, _⟩ => by show (0 : Nat) = if (1 : Nat) = 1 then 0 else b.val; rw [if_pos rfl]
    | ⟨1, _⟩ => by show n.val = if (256 : Nat) = 1 then 0 else n.val; rw [if_neg (by decide)])]
  rw [broadcastInDim_apply _ bcast_S256_S1x256_1 _ (ix2 (0 : Fin 1) n) (ix1 n) (fun a => match a with
    | ⟨0, _⟩ => by show n.val = if (256 : Nat) = 1 then 0 else n.val; rw [if_neg (by decide)])]
  rw [broadcastInDim_apply _ bcast_S256x1_S256x256_0_1 _ (ix2 b n) (ix2 b (0 : Fin 1)) (fun a => match a with
    | ⟨0, _⟩ => by show b.val = if (256 : Nat) = 1 then 0 else b.val; rw [if_neg (by decide)]
    | ⟨1, _⟩ => by show (0 : Nat) = if (1 : Nat) = 1 then 0 else n.val; rw [if_pos rfl])]
  rw [broadcastInDim_apply _ bcast_S256_S256x1_0 _ (ix2 b (0 : Fin 1)) (ix1 b) (fun a => match a with
    | ⟨0, _⟩ => by show b.val = if (256 : Nat) = 1 then 0 else b.val; rw [if_neg (by decide)])]
  rfl

/-- The identity pattern the launch finds, at (i, j). -/
theorem found_eye (c : Dev nD) (i j : Fin 256) : (V m c main_v13 : S256x256.Idx → EReal) (ix2 i j) = eye i j := by
  have e : (V m c main_v13 : S256x256.Idx → EReal)
      = uitofp (F := Ideal) .f32 (cmpi .eq
          (addi (iotaInDim S256x256 32 0) (broadcastInDim S256x256 ![] bcast_S_S256x256 (constantI S_ 32 0#32)))
          (iotaInDim S256x256 32 1)) := by
    dsimp only [Gen.V, Gen.hostOps0]; after_results
  rw [e]
  rfl

/-- The regrouped weights the launch finds: row d = 128·k + f is the weight matrix's row 4·f + k. -/
theorem found_weights (c : Dev nD) (d : Fin 512) (o : Fin 256) :
    (V m c main_v16 : S512x256.Idx → EReal) (ix2 d o)
      = (m ((c : Thread nD τ).loc main_arg4) : S512x256.Idx → EReal)
          (ix2 ⟨(d.val % 128) * 4 + d.val / 128, by have := d.isLt; omega⟩ o) := by
  have hd := d.isLt
  have e : (V m c main_v16 : S512x256.Idx → EReal)
      = shapeCast S512x256 (transpose S4x128x256 [1, 0, 2]
          (shapeCast S128x4x256 (m ((c : Thread nD τ).loc main_arg4) : S512x256.Idx → EReal) shapeCasts_S512x256_S128x4x256)
          transposes_S128x4x256_S4x128x256_1_0_2) shapeCasts_S4x128x256_S512x256 := by
    dsimp only [Gen.V, Gen.hostOps0]; after_results
    rfl
  rw [e]
  -- (d, o) of the result is (d / 128, d % 128, o) of the swapped array …
  rw [shapeCast_apply _ shapeCasts_S4x128x256_S512x256 (ix2 d o)
    (ix3 (⟨d.val / 128, by omega⟩ : Fin 4) (⟨d.val % 128, Nat.mod_lt _ (by decide)⟩ : Fin 128) o) (by
      rw [Shape.rowMajor_val_three, Shape.rowMajor_val_two]
      show (d.val / 128 * 128 + d.val % 128) * 256 + o.val = d.val * 256 + o.val
      have := Nat.div_add_mod d.val 128; omega)]
  -- … which is (d % 128, d / 128, o) before the swap …
  rw [transpose_apply [1, 0, 2] _ transposes_S128x4x256_S4x128x256_1_0_2
    (ix3 (⟨d.val / 128, by omega⟩ : Fin 4) (⟨d.val % 128, Nat.mod_lt _ (by decide)⟩ : Fin 128) o)
    (ix3 (⟨d.val % 128, Nat.mod_lt _ (by decide)⟩ : Fin 128) (⟨d.val / 128, by omega⟩ : Fin 4) o) (fun a => by
      match a with
      | ⟨0, _⟩ => rfl
      | ⟨1, _⟩ => rfl
      | ⟨2, _⟩ => rfl)]
  -- … which is row (d % 128) · 4 + d / 128 of the weight matrix.
  rw [shapeCast_apply _ shapeCasts_S512x256_S128x4x256
    (ix3 (⟨d.val % 128, Nat.mod_lt _ (by decide)⟩ : Fin 128) (⟨d.val / 128, by omega⟩ : Fin 4) o)
    (ix2 ⟨(d.val % 128) * 4 + d.val / 128, by omega⟩ o) (by
      rw [Shape.rowMajor_val_three, Shape.rowMajor_val_two]
      rfl)]

end Cert.GraphConv.Found

end
-- ==== Proof.LibRank3Layout.lean ====
/-
  Layout operations of rank-three arrays read at an index, general in the extents and the element type.

  * a vector or matrix given unit axes by a shape cast: [a,b] → [a,1,b], [a,b] → [a,b,1], [a] → [1,1,a], [a,1] → [a];
  * the four broadcasts that fill unit axes of a rank-three array: [a,1,c], [1,b,c], [a,b,1], [1,1,c] → [a,b,c];
  * a rank-three array against its row-flattening: [a,b,c] → [a·b,c] and back, row (i, j) of the first being row
    i·b + j of the second.

  Each lemma names both indices by coordinates; its proof is one row-major equation or one case per axis.
-/
import Idealize.ShloMosaic.Lib.ValueIdx
import Idealize.ShloMosaic.Lib.Pipeline.Value

namespace Cert.Rank3Layout

open Idealize.ShloMosaic Idealize.ShloMosaic.ValueIdx

variable {α : Type}

/-! ## Unit axes added or dropped by a shape cast -/

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[1, 1, a]` reads, at `(u, v, i)`, the operand at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add])

/-- An `[a, 1]` column cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-! ## A rank-three array against its row-flattening -/

/-- An `[a, b, c]` array cast to `[a·b, c]` reads, at row `i·b + j` and column `k`, the operand at `(i, j, k)`. -/
theorem shapeCast_abc_rows_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[a·b, c]` array cast to `[a, b, c]` reads, at `(i, j, k)`, the operand at row `i·b + j` and column `k`. -/
theorem shapeCast_rows_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-! ## Broadcasts that fill unit axes -/

/-- An `[a, 1, c]` array broadcast to `[a, b, c]` reads, at `(i, j, k)`, the operand at `(i, 0, k)`. -/
theorem broadcastTo_a1c_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]` reads, at `(i, j, k)`, the operand at `(0, 0, k)`. -/
theorem broadcastTo_11c_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.Rank3Layout
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.LibBatchedDot.lean ====
/-
  Batched matrix products, read at an entry.

  Two arrangements of a product with one leading batch axis, over the extended reals, each read at entry (b, i, j) as the
  textbook sum with the batch index carried along:
    * rows against rows, [B, M, K] × [B, N, K] → [B, M, N] (contract the last axis of both):
        ∑ₖ A(b, i, k) · C(b, j, k)  — the Gram matrix of two families of rows;
    * matrix against matrix, [B, M, K] × [B, K, N] → [B, M, N] (contract the left operand's last axis with the right
      operand's middle axis):  ∑ₖ A(b, i, k) · C(b, k, j).
  Both for the kernel's matrix unit accumulating into zero. No sum is reordered and no factor moved, so nothing here
  needs the entries finite. General in B, M, N, K.
-/
import Idealize.ShloMosaic.PureOps.Ideal
import Idealize.ShloMosaic.PureOps.Ideal.Laws
import Idealize.ShloMosaic.Lib.ValueIdx

noncomputable section

namespace Cert.LibBatchedDot

open Idealize.ShloMosaic Idealize.ShloMosaic.ValueIdx

variable {B M N K : Nat} {φ₁ φ₂ : FTy}

/-! ## Rows against rows -/

/-- The dimension numbers of [B, M, K] × [B, N, K] → [B, M, N]. -/
abbrev rowsDims (wf : DotDims.WF (⟨3, ![B, M, K]⟩ : Shape) ⟨3, ![B, N, K]⟩ ⟨3, ![B, M, N]⟩ [2] [2] [1] [1] [0] [0]) :
    DotDims (⟨3, ![B, M, K]⟩ : Shape) ⟨3, ![B, N, K]⟩ ⟨3, ![B, M, N]⟩ where
  lhsContracting := [2]
  rhsContracting := [2]
  lhsNonContracting := [1]
  rhsNonContracting := [1]
  lhsBatch := [0]
  rhsBatch := [0]
  wf := wf

section Rows
variable (wf : DotDims.WF (⟨3, ![B, M, K]⟩ : Shape) ⟨3, ![B, N, K]⟩ ⟨3, ![B, M, N]⟩ [2] [2] [1] [1] [0] [0])

theorem rows_lhs0 (b : Fin B) (i : Fin M) (j : Fin N) (q : (rowsDims wf).contr.Idx) :
    ((rowsDims wf).lhsIdx (ix3 b i j) q 0).val = b.val := by
  unfold DotDims.lhsIdx
  rw [dif_pos (show (0 : Fin 3) ∈ (rowsDims wf).lhsBatch from List.mem_singleton.mpr rfl)]
  rfl

theorem rows_lhs1 (b : Fin B) (i : Fin M) (j : Fin N) (q : (rowsDims wf).contr.Idx) :
    ((rowsDims wf).lhsIdx (ix3 b i j) q 1).val = i.val := by
  unfold DotDims.lhsIdx
  rw [dif_neg (by decide : ¬(1 : Fin 3) ∈ ([0] : List (Fin 3))),
    dif_pos (show (1 : Fin 3) ∈ (rowsDims wf).lhsNonContracting from List.mem_singleton.mpr rfl)]
  rfl

theorem rows_lhs2 (b : Fin B) (i : Fin M) (j : Fin N) (q : (rowsDims wf).contr.Idx) :
    ((rowsDims wf).lhsIdx (ix3 b i j) q 2).val = (q ⟨0, Nat.one_pos⟩).val :=
  (rowsDims wf).lhsIdx_val_of_single rfl (ix3 b i j) q

theorem rows_rhs0 (b : Fin B) (i : Fin M) (j : Fin N) (q : (rowsDims wf).contr.Idx) :
    ((rowsDims wf).rhsIdx (ix3 b i j) q 0).val = b.val := by
  unfold DotDims.rhsIdx
  rw [dif_pos (show (0 : Fin 3) ∈ (rowsDims wf).rhsBatch from List.mem_singleton.mpr rfl)]
  rfl

theorem rows_rhs1 (b : Fin B) (i : Fin M) (j : Fin N) (q : (rowsDims wf).contr.Idx) :
    ((rowsDims wf).rhsIdx (ix3 b i j) q 1).val = j.val := by
  unfold DotDims.rhsIdx
  rw [dif_neg (by decide : ¬(1 : Fin 3) ∈ ([0] : List (Fin 3))),
    dif_pos (show (1 : Fin 3) ∈ (rowsDims wf).rhsNonContracting from List.mem_singleton.mpr rfl)]
  rfl

theorem rows_rhs2 (b : Fin B) (i : Fin M) (j : Fin N) (q : (rowsDims wf).contr.Idx) :
    ((rowsDims wf).rhsIdx (ix3 b i j) q 2).val = (q ⟨0, Nat.one_pos⟩).val :=
  (rowsDims wf).rhsIdx_val_of_single rfl (ix3 b i j) q

/-- The sum over the contraction index is the sum over k < K of A(b, i, k) · C(b, j, k). -/
theorem rows_sum_contr (A : FVec Ideal ⟨3, ![B, M, K]⟩ φ₁) (C : FVec Ideal ⟨3, ![B, N, K]⟩ φ₂) (b : Fin B) (i : Fin M) (j : Fin N) :
    ∑ q : (rowsDims wf).contr.Idx, A ((rowsDims wf).lhsIdx (ix3 b i j) q) * C ((rowsDims wf).rhsIdx (ix3 b i j) q)
      = ∑ k : Fin K, A (ix3 b i k) * C (ix3 b j k) := by
  rw [← Equiv.sum_comp (contrEquiv1 (rowsDims wf) K rfl rfl).symm]
  refine Finset.sum_congr rfl fun k _ => ?_
  have hk := contrEquiv1_symm_val (rowsDims wf) K rfl rfl k
  have el : (rowsDims wf).lhsIdx (ix3 b i j) ((contrEquiv1 (rowsDims wf) K rfl rfl).symm k) = ix3 b i k := funext fun a => Fin.ext (by
    match a with
    | ⟨0, _⟩ => exact rows_lhs0 wf b i j _
    | ⟨1, _⟩ => exact rows_lhs1 wf b i j _
    | ⟨2, _⟩ => exact (rows_lhs2 wf b i j _).trans hk)
  have er : (rowsDims wf).rhsIdx (ix3 b i j) ((contrEquiv1 (rowsDims wf) K rfl rfl).symm k) = ix3 b j k := funext fun a => Fin.ext (by
    match a with
    | ⟨0, _⟩ => exact rows_rhs0 wf b i j _
    | ⟨1, _⟩ => exact rows_rhs1 wf b i j _
    | ⟨2, _⟩ => exact (rows_rhs2 wf b i j _).trans hk)
  rw [el, er]

/-- The kernel's matrix unit into a zero accumulator, rows against rows, at entry (b, i, j). -/
theorem rows_matmul_zero_apply (prec : Option ContractPrecision)
    (A : FVec Ideal ⟨3, ![B, M, K]⟩ φ₁) (C : FVec Ideal ⟨3, ![B, N, K]⟩ φ₂) (b : Fin B) (i : Fin M) (j : Fin N) :
    FloatOps.matmul (rowsDims wf) prec A C (constant ⟨3, ![B, M, N]⟩ .f32 0x00000000#32) (ix3 b i j)
      = ∑ k : Fin K, A (ix3 b i k) * C (ix3 b j k) := by
  rw [Ideal.matmul_constant_zero_apply]
  exact rows_sum_contr wf A C b i j

end Rows

/-! ## Matrix against matrix -/

/-- The dimension numbers of [B, M, K] × [B, K, N] → [B, M, N]. -/
abbrev matDims (wf : DotDims.WF (⟨3, ![B, M, K]⟩ : Shape) ⟨3, ![B, K, N]⟩ ⟨3, ![B, M, N]⟩ [2] [1] [1] [2] [0] [0]) :
    DotDims (⟨3, ![B, M, K]⟩ : Shape) ⟨3, ![B, K, N]⟩ ⟨3, ![B, M, N]⟩ where
  lhsContracting := [2]
  rhsContracting := [1]
  lhsNonContracting := [1]
  rhsNonContracting := [2]
  lhsBatch := [0]
  rhsBatch := [0]
  wf := wf

section Mat
variable (wf : DotDims.WF (⟨3, ![B, M, K]⟩ : Shape) ⟨3, ![B, K, N]⟩ ⟨3, ![B, M, N]⟩ [2] [1] [1] [2] [0] [0])

theorem mat_lhs0 (b : Fin B) (i : Fin M) (j : Fin N) (q : (matDims wf).contr.Idx) :
    ((matDims wf).lhsIdx (ix3 b i j) q 0).val = b.val := by
  unfold DotDims.lhsIdx
  rw [dif_pos (show (0 : Fin 3) ∈ (matDims wf).lhsBatch from List.mem_singleton.mpr rfl)]
  rfl

theorem mat_lhs1 (b : Fin B) (i : Fin M) (j : Fin N) (q : (matDims wf).contr.Idx) :
    ((matDims wf).lhsIdx (ix3 b i j) q 1).val = i.val := by
  unfold DotDims.lhsIdx
  rw [dif_neg (by decide : ¬(1 : Fin 3) ∈ ([0] : List (Fin 3))),
    dif_pos (show (1 : Fin 3) ∈ (matDims wf).lhsNonContracting from List.mem_singleton.mpr rfl)]
  rfl

theorem mat_lhs2 (b : Fin B) (i : Fin M) (j : Fin N) (q : (matDims wf).contr.Idx) :
    ((matDims wf).lhsIdx (ix3 b i j) q 2).val = (q ⟨0, Nat.one_pos⟩).val :=
  (matDims wf).lhsIdx_val_of_single rfl (ix3 b i j) q

theorem mat_rhs0 (b : Fin B) (i : Fin M) (j : Fin N) (q : (matDims wf).contr.Idx) :
    ((matDims wf).rhsIdx (ix3 b i j) q 0).val = b.val := by
  unfold DotDims.rhsIdx
  rw [dif_pos (show (0 : Fin 3) ∈ (matDims wf).rhsBatch from List.mem_singleton.mpr rfl)]
  rfl

theorem mat_rhs1 (b : Fin B) (i : Fin M) (j : Fin N) (q : (matDims wf).contr.Idx) :
    ((matDims wf).rhsIdx (ix3 b i j) q 1).val = (q ⟨0, Nat.one_pos⟩).val :=
  (matDims wf).rhsIdx_val_of_single rfl (ix3 b i j) q

theorem mat_rhs2 (b : Fin B) (i : Fin M) (j : Fin N) (q : (matDims wf).contr.Idx) :
    ((matDims wf).rhsIdx (ix3 b i j) q 2).val = j.val := by
  unfold DotDims.rhsIdx
  rw [dif_neg (by decide : ¬(2 : Fin 3) ∈ ([0] : List (Fin 3))),
    dif_pos (show (2 : Fin 3) ∈ (matDims wf).rhsNonContracting from List.mem_singleton.mpr rfl)]
  rfl

/-- The sum over the contraction index is the sum over k < K of A(b, i, k) · C(b, k, j). -/
theorem mat_sum_contr (A : FVec Ideal ⟨3, ![B, M, K]⟩ φ₁) (C : FVec Ideal ⟨3, ![B, K, N]⟩ φ₂) (b : Fin B) (i : Fin M) (j : Fin N) :
    ∑ q : (matDims wf).contr.Idx, A ((matDims wf).lhsIdx (ix3 b i j) q) * C ((matDims wf).rhsIdx (ix3 b i j) q)
      = ∑ k : Fin K, A (ix3 b i k) * C (ix3 b k j) := by
  rw [← Equiv.sum_comp (contrEquiv1 (matDims wf) K rfl rfl).symm]
  refine Finset.sum_congr rfl fun k _ => ?_
  have hk := contrEquiv1_symm_val (matDims wf) K rfl rfl k
  have el : (matDims wf).lhsIdx (ix3 b i j) ((contrEquiv1 (matDims wf) K rfl rfl).symm k) = ix3 b i k := funext fun a => Fin.ext (by
    match a with
    | ⟨0, _⟩ => exact mat_lhs0 wf b i j _
    | ⟨1, _⟩ => exact mat_lhs1 wf b i j _
    | ⟨2, _⟩ => exact (mat_lhs2 wf b i j _).trans hk)
  have er : (matDims wf).rhsIdx (ix3 b i j) ((contrEquiv1 (matDims wf) K rfl rfl).symm k) = ix3 b k j := funext fun a => Fin.ext (by
    match a with
    | ⟨0, _⟩ => exact mat_rhs0 wf b i j _
    | ⟨1, _⟩ => exact (mat_rhs1 wf b i j _).trans hk
    | ⟨2, _⟩ => exact mat_rhs2 wf b i j _)
  rw [el, er]

/-- The kernel's matrix unit into a zero accumulator, matrix against matrix, at entry (b, i, j). -/
theorem mat_matmul_zero_apply (prec : Option ContractPrecision)
    (A : FVec Ideal ⟨3, ![B, M, K]⟩ φ₁) (C : FVec Ideal ⟨3, ![B, K, N]⟩ φ₂) (b : Fin B) (i : Fin M) (j : Fin N) :
    FloatOps.matmul (matDims wf) prec A C (constant ⟨3, ![B, M, N]⟩ .f32 0x00000000#32) (ix3 b i j)
      = ∑ k : Fin K, A (ix3 b i k) * C (ix3 b k j) := by
  rw [Ideal.matmul_constant_zero_apply]
  exact mat_sum_contr wf A C b i j

end Mat

end Cert.LibBatchedDot

end
-- ==== Proof.BlockDistance.lean ====
/-
  One grid point of the kernel holds four molecules. This module reads the first half of the body's arithmetic at one
  entry of that block, for row g of the block and the molecule b whose slices that row holds: the mask, the masked
  features, the features in the learned metric (the four molecules' rows laid end to end, one product with the metric,
  cut apart again), a row's squared length (a sum along the feature axis), the Gram matrix (rows against rows) and the
  squared distance |u|² + |v|² − 2⟨u, v⟩. Each is the specification's function of molecule b, given that the block's
  row g holds molecule b's features and mask and that the metric block is the metric.
-/
import proofs.«113123_j64510408786278_2_alg».proof.Proof.Gen.KernelIdeal.Skeleton
import proofs.«113123_j64510408786278_2_alg».proof.Proof.Spec
import proofs.«113123_j64510408786278_2_alg».proof.Proof.LibRank3Layout
import proofs.«113123_j64510408786278_2_alg».proof.Proof.LibPlainDot
import proofs.«113123_j64510408786278_2_alg».proof.Proof.LibBatchedDot
import Idealize.ShloMosaic.Lib.ValueIdx
import Idealize.ShloMosaic.Lib.Pipeline.Value
import Idealize.ShloMosaic.PureOps.Ideal.Laws

noncomputable section

namespace Cert.GraphConv.Block

open Idealize.ShloMosaic Idealize.ShloMosaic.ValueIdx Cert.KernelIdeal Cert.KernelIdeal.Gen Cert.GraphConv Cert.Rank3Layout

variable (X : (⟨3, ![256, 256, 128]⟩ : Shape).Idx → EReal) (Lap : (⟨3, ![256, 256, 256]⟩ : Shape).Idx → EReal)
  (Cnt : (⟨1, ![256]⟩ : Shape).Idx → BitVec 32) (Met : (⟨2, ![128, 128]⟩ : Shape).Idx → EReal)
  (Wt : (⟨2, ![512, 256]⟩ : Shape).Idx → EReal) (Bias : (⟨1, ![256]⟩ : Shape).Idx → EReal)
variable (g : Fin 4) (b : Fin 256)
variable (x0 : FVec Ideal S4x256x128 .f32) (x2 : FVec Ideal S4x256x1 .f32) (x3 : FVec Ideal S128x128 .f32)

/-! ## Two layout reads the block needs -/

/-- A column [a, b, 1] turned into a row [a, 1, b]: entry (i, ·, j) of the row is entry (i, j, ·) of the column. -/
theorem transpose_col_row_apply {α : Type} {a c : ℕ} (x : (⟨3, ![a, c, 1]⟩ : Shape).Idx → α)
    (h : (⟨3, ![a, c, 1]⟩ : Shape).Transposes [0, 2, 1] ⟨3, ![a, 1, c]⟩) (i : Fin a) (u : Fin 1) (j : Fin c) :
    transpose ⟨3, ![a, 1, c]⟩ [0, 2, 1] x h (ix3 i u j) = x (ix3 i j (0 : Fin 1)) :=
  transpose_apply [0, 2, 1] x h (ix3 i u j) (ix3 i j (0 : Fin 1)) (fun d => by
    match d with
    | ⟨0, _⟩ => rfl
    | ⟨1, _⟩ => show (0 : ℕ) = u.val; omega
    | ⟨2, _⟩ => rfl)

/-- A sum along the last axis of a [4, 256, 128] block, read at (g, n). -/
theorem laneSum128_apply (v : FVec Ideal S4x256x128 .f32) (hacc : (0x00000000#32 : BitVec 32) = 0x00000000#32)
    (g : Fin 4) (n : Fin 256) :
    multiReduction (F := Ideal) .add [2] S4x256 v 0x00000000#32 reduces_S4x256x128_S4x256 (.inl rfl) hacc (ix2 g n)
      = ∑ k : Fin 128, v (ix3 g n k) := by
  refine (Ideal.multiReduction_add_single v 0x00000000#32 reduces_S4x256x128_S4x256 (.inl rfl) hacc (ix2 g n)).trans ?_
  refine Finset.sum_congr rfl fun k _ => congrArg v ?_
  exact funext fun a => Fin.ext (by match a with | ⟨0, _⟩ => rfl | ⟨1, _⟩ => rfl | ⟨2, _⟩ => rfl)

/-! ## The mask and the masked features -/

/-- The block's mask column at row g is molecule b's mask. -/
theorem blk_mask (hM : ∀ n : Fin 256, x2 (ix3 g n (0 : Fin 1)) = mask Cnt b n) (n : Fin 256) :
    k0_pay2 (F := Ideal) x2 (ix3 g n (0 : Fin 1)) = mask Cnt b n := by
  have e : k0_pay2 (F := Ideal) x2 = x2 := shapeCast_self x2 _
  rw [e]; exact hM n

/-- The block's masked features at row g are molecule b's. -/
theorem blk_xm (hX : ∀ (n : Fin 256) (f : Fin 128), x0 (ix3 g n f) = X (ix3 b n f))
    (hM : ∀ n : Fin 256, x2 (ix3 g n (0 : Fin 1)) = mask Cnt b n) (n : Fin 256) (f : Fin 128) :
    k0_pay4 (F := Ideal) x0 x2 (ix3 g n f) = xm X Cnt b n f := by
  have e : k0_pay4 (F := Ideal) x0 x2 (ix3 g n f)
      = x0 (ix3 g n f) * broadcastTo S4x256x128 (k0_pay2 (F := Ideal) x2) broadcasts_S4x256x1_S4x256x128 (ix3 g n f) := rfl
  rw [e, broadcastTo_ab1_apply, blk_mask Cnt g b x2 hM n, hX n f]
  rfl

/-! ## The features in the learned metric -/

/-- The four molecules' masked rows laid end to end, multiplied by the metric, cut apart again. -/
def xwBlk : FVec Ideal S4x256x128 .f32 :=
  shapeCast S4x256x128
    (matmul dot_S1024x128_S128x128_S1024x128_1_0_0_1_n_n none
      (shapeCast S1024x128 (k0_pay4 (F := Ideal) x0 x2) shapeCasts_S4x256x128_S1024x128) x3
      (constant (F := Ideal) S1024x128 .f32 0x00000000#32))
    shapeCasts_S1024x128_S4x256x128

theorem blk_xw (hX : ∀ (n : Fin 256) (f : Fin 128), x0 (ix3 g n f) = X (ix3 b n f))
    (hM : ∀ n : Fin 256, x2 (ix3 g n (0 : Fin 1)) = mask Cnt b n)
    (hMet : ∀ f q : Fin 128, x3 (ix2 f q) = Met (ix2 f q)) (n : Fin 256) (q : Fin 128) :
    xwBlk x0 x2 x3 (ix3 g n q) = xw X Cnt Met b n q := by
  have hlt : g.val * 256 + n.val < 1024 := by have := g.isLt; have := n.isLt; omega
  unfold xwBlk xw
  refine (shapeCast_rows_abc_apply _ _ g n q ⟨g.val * 256 + n.val, hlt⟩ rfl).trans ?_
  refine (Cert.LibPlainDot.matmul_zero_apply (M := 1024) (K := 128) (N := 128)
    Facts₀.dot_S1024x128_S128x128_S1024x128_1_0_0_1_n_n_wf none _ x3 ⟨g.val * 256 + n.val, hlt⟩ q).trans ?_
  refine Finset.sum_congr rfl fun k _ => ?_
  rw [shapeCast_abc_rows_apply _ _ g n k ⟨g.val * 256 + n.val, hlt⟩ rfl, blk_xm X Cnt g b x0 x2 hX hM n k, hMet k q]

/-! ## Squared lengths, inner products, squared distance -/

/-- The squared length of each transformed row, kept as a column. -/
def sqBlk : FVec Ideal S4x256x1 .f32 :=
  shapeCast S4x256x1
    (multiReduction (F := Ideal) .add [2] S4x256 (mulf (xwBlk x0 x2 x3) (xwBlk x0 x2 x3)) 0x00000000#32
      reduces_S4x256x128_S4x256 (.inl rfl) rfl)
    shapeCasts_S4x256_S4x256x1

/-- The Gram matrix of the transformed rows, molecule by molecule. -/
def gramBlk : FVec Ideal S4x256x256 .f32 :=
  matmul dot_S4x256x128_S4x256x128_S4x256x256_2_2_1_1_0_0 none (xwBlk x0 x2 x3) (xwBlk x0 x2 x3)
    (constant (F := Ideal) S4x256x256 .f32 0x00000000#32)

/-- The body's squared-distance payload is built from the pieces above. -/
theorem pay5_eq : k0_pay5 (F := Ideal) x0 x2 x3
    = subf (addf (broadcastTo S4x256x256 (sqBlk x0 x2 x3) broadcasts_S4x256x1_S4x256x256)
              (broadcastTo S4x256x256 (transpose S4x1x256 [0, 2, 1] (sqBlk x0 x2 x3) transposes_S4x256x1_p0_2_1_S4x1x256)
                broadcasts_S4x1x256_S4x256x256))
        (mulf (broadcast S4x256x256 (Scalar.ofBits (F := Ideal) .f32 0x40000000#32)) (gramBlk x0 x2 x3)) := rfl

section
variable (hX : ∀ (n : Fin 256) (f : Fin 128), x0 (ix3 g n f) = X (ix3 b n f))
  (hM : ∀ n : Fin 256, x2 (ix3 g n (0 : Fin 1)) = mask Cnt b n)
  (hMet : ∀ f q : Fin 128, x3 (ix2 f q) = Met (ix2 f q))
include hX hM hMet

theorem blk_sq (n : Fin 256) : sqBlk x0 x2 x3 (ix3 g n (0 : Fin 1)) = sq X Cnt Met b n := by
  unfold sqBlk sq
  refine (shapeCast_ab_ab1_apply _ _ g n (0 : Fin 1)).trans ?_
  refine (laneSum128_apply _ rfl g n).trans ?_
  refine Finset.sum_congr rfl fun k _ => ?_
  show xwBlk x0 x2 x3 (ix3 g n k) * xwBlk x0 x2 x3 (ix3 g n k) = _
  rw [blk_xw X Cnt Met g b x0 x2 x3 hX hM hMet n k]

theorem blk_gram (i j : Fin 256) : gramBlk x0 x2 x3 (ix3 g i j) = gram X Cnt Met b i j := by
  unfold gramBlk gram
  refine (Cert.LibBatchedDot.rows_matmul_zero_apply (B := 4) (M := 256) (N := 256) (K := 128)
    Facts₀.dot_S4x256x128_S4x256x128_S4x256x256_2_2_1_1_0_0_wf none _ _ g i j).trans ?_
  refine Finset.sum_congr rfl fun k _ => ?_
  rw [blk_xw X Cnt Met g b x0 x2 x3 hX hM hMet i k, blk_xw X Cnt Met g b x0 x2 x3 hX hM hMet j k]

theorem blk_d2 (i j : Fin 256) : k0_pay5 (F := Ideal) x0 x2 x3 (ix3 g i j) = d2 X Cnt Met b i j := by
  rw [pay5_eq]
  show (broadcastTo S4x256x256 (sqBlk x0 x2 x3) broadcasts_S4x256x1_S4x256x256 (ix3 g i j)
        + broadcastTo S4x256x256 (transpose S4x1x256 [0, 2, 1] (sqBlk x0 x2 x3) transposes_S4x256x1_p0_2_1_S4x1x256)
            broadcasts_S4x1x256_S4x256x256 (ix3 g i j))
      - Ideal.ofBits .f32 0x40000000#32 * gramBlk x0 x2 x3 (ix3 g i j) = _
  rw [broadcastTo_ab1_apply, broadcastTo_a1c_apply, transpose_col_row_apply,
    blk_sq X Cnt Met g b x0 x2 x3 hX hM hMet i, blk_sq X Cnt Met g b x0 x2 x3 hX hM hMet j,
    blk_gram X Cnt Met g b x0 x2 x3 hX hM hMet i j]
  rfl

end

end Cert.GraphConv.Block

end
-- ==== Proof.BlockLaplacian.lean ====
/-
  The second part of the body's arithmetic at one entry of the four-molecule block, for row g of the block and the
  molecule b that row holds: the identity pattern and the validity factors (both atoms real; both real and distinct),
  the affinity exp(−√(max d² floor)) on the valid pairs, the degree (a sum of the affinity along its last axis plus the
  smallest positive float), its reciprocal square root on the real atoms, and the normalised Laplacian
  δ · mask − dinv · aff · dinvᵀ. The Laplacian is read over VARIABLES for the five values the body feeds it, each known
  only at row g, so that it applies to whatever the block holds.
-/
import proofs.«113123_j64510408786278_2_alg».proof.Proof.BlockDistance

noncomputable section

namespace Cert.GraphConv.Block

open Idealize.ShloMosaic Idealize.ShloMosaic.ValueIdx Cert.KernelIdeal Cert.KernelIdeal.Gen Cert.GraphConv Cert.Rank3Layout

variable (X : (⟨3, ![256, 256, 128]⟩ : Shape).Idx → EReal) (Lap : (⟨3, ![256, 256, 256]⟩ : Shape).Idx → EReal)
  (Cnt : (⟨1, ![256]⟩ : Shape).Idx → BitVec 32) (Met : (⟨2, ![128, 128]⟩ : Shape).Idx → EReal)
  (Wt : (⟨2, ![512, 256]⟩ : Shape).Idx → EReal) (Bias : (⟨1, ![256]⟩ : Shape).Idx → EReal)
variable (g : Fin 4) (b : Fin 256)

/-! ## Two more layout reads -/

/-- A [b, c] array given a leading axis of length one reads, at (·, i, j), the operand at (i, j). -/
theorem shapeCast_bc_1bc_apply {α : Type} {m n : ℕ} (x : (⟨2, ![m, n]⟩ : Shape).Idx → α)
    (h : (⟨2, ![m, n]⟩ : Shape).ShapeCasts ⟨3, ![1, m, n]⟩) (u : Fin 1) (i : Fin m) (j : Fin n) :
    shapeCast ⟨3, ![1, m, n]⟩ x h (ix3 u i j) = x (ix2 i j) :=
  shapeCast_apply x h _ _ (by
    have hu : u.val = 0 := by omega
    rw [Shape.rowMajor_val_three, Shape.rowMajor_val_two]
    show i.val * n + j.val = (u.val * m + i.val) * n + j.val
    rw [hu, Nat.zero_mul, Nat.zero_add])

/-- A sum along the last axis of a [4, 256, 256] block, read at (g, i). -/
theorem laneSum256_apply (v : FVec Ideal S4x256x256 .f32) (hacc : (0x00000000#32 : BitVec 32) = 0x00000000#32)
    (g : Fin 4) (i : Fin 256) :
    multiReduction (F := Ideal) .add [2] S4x256 v 0x00000000#32 reduces_S4x256x256_S4x256 (.inl rfl) hacc (ix2 g i)
      = ∑ k : Fin 256, v (ix3 g i k) := by
  refine (Ideal.multiReduction_add_single v 0x00000000#32 reduces_S4x256x256_S4x256 (.inl rfl) hacc (ix2 g i)).trans ?_
  refine Finset.sum_congr rfl fun k _ => congrArg v ?_
  exact funext fun a => Fin.ext (by match a with | ⟨0, _⟩ => rfl | ⟨1, _⟩ => rfl | ⟨2, _⟩ => rfl)

/-! ## The identity pattern and the validity factors -/

section Factors
variable (x2 : FVec Ideal S4x256x1 .f32) (x4 : FVec Ideal S256x256 .f32)
variable (hM : ∀ n : Fin 256, x2 (ix3 g n (0 : Fin 1)) = mask Cnt b n)

/-- The identity block, repeated for each of the four molecules. -/
theorem blk_eye (hE : ∀ i j : Fin 256, x4 (ix2 i j) = eye i j) (i j : Fin 256) : k0_pay6 (F := Ideal) x4 (ix3 g i j) = eye i j := by
  have e : k0_pay6 (F := Ideal) x4 = broadcastTo S4x256x256 (shapeCast S1x256x256 x4 shapeCasts_S256x256_S1x256x256) broadcasts_S1x256x256_S4x256x256 := by
    show broadcastTo S4x256x256 (shapeCast S1x256x256 (shapeCast S1x256x256 (shapeCast S256x256 x4 shapeCasts_S256x256_S256x256)
        shapeCasts_S256x256_S1x256x256) shapeCasts_S1x256x256_S1x256x256) broadcasts_S1x256x256_S4x256x256 = _
    rw [shapeCast_self, shapeCast_self]
  rw [e, broadcastTo_1bc_apply, shapeCast_bc_1bc_apply, hE i j]

include hM in
/-- Both atoms real. -/
theorem blk_mm (i j : Fin 256) : k0_pay7 (F := Ideal) x2 (ix3 g i j) = mm Cnt b i j := by
  have e : k0_pay7 (F := Ideal) x2 (ix3 g i j)
      = broadcastTo S4x256x256 (k0_pay2 (F := Ideal) x2) broadcasts_S4x256x1_S4x256x256 (ix3 g i j)
        * broadcastTo S4x256x256 (transpose S4x1x256 [0, 2, 1] (k0_pay2 (F := Ideal) x2) transposes_S4x256x1_p0_2_1_S4x1x256)
            broadcasts_S4x1x256_S4x256x256 (ix3 g i j) := rfl
  rw [e, broadcastTo_ab1_apply, broadcastTo_a1c_apply, transpose_col_row_apply,
    blk_mask Cnt g b x2 hM i, blk_mask Cnt g b x2 hM j]
  rfl

include hM in
/-- Both atoms real and distinct. -/
theorem blk_off (hE : ∀ i j : Fin 256, x4 (ix2 i j) = eye i j) (i j : Fin 256) :
    k0_pay8 (F := Ideal) x2 x4 (ix3 g i j) = off Cnt b i j := by
  have e : k0_pay8 (F := Ideal) x2 x4 (ix3 g i j)
      = k0_pay7 (F := Ideal) x2 (ix3 g i j) * (Ideal.ofBits .f32 0x3F800000#32 - k0_pay6 (F := Ideal) x4 (ix3 g i j)) := rfl
  rw [e, blk_mm Cnt g b x2 hM i j, blk_eye g x4 hE i j]
  rfl

/-- The zero splat. -/
theorem blk_zero (i j : Fin 256) : k0_pay9 (F := Ideal) (ix3 g i j) = Ideal.ofBits .f32 0x00000000#32 := rfl

end Factors

/-! ## Affinity, degree, inverse square root, Laplacian — over variables known at row g -/

variable (v3 : FVec Ideal S4x256x1 .f32) (v25 v28 v35 v36 : FVec Ideal S4x256x256 .f32)

/-- The affinity over the block. -/
def affBlk : FVec Ideal S4x256x256 .f32 :=
  mulf (exp (subf (broadcast S4x256x256 (Scalar.ofBits (F := Ideal) .f32 0x00000000#32))
      (sqrt (select (cmpf .ogt v35 v36)
        (maximumf v25 (broadcast S4x256x256 (Scalar.ofBits (F := Ideal) .f32 0x2B8CBCCC#32)))
        (broadcast S4x256x256 (Scalar.ofBits (F := Ideal) .f32 0x3F800000#32)))))) v35

/-- The degree over the block, as a column. -/
def degBlk : FVec Ideal S4x256x1 .f32 :=
  addf (shapeCast S4x256x1
      (multiReduction (F := Ideal) .add [2] S4x256 (affBlk v25 v35 v36) 0x00000000#32 reduces_S4x256x256_S4x256 (.inl rfl) rfl)
      shapeCasts_S4x256_S4x256x1)
    (broadcast S4x256x1 (Scalar.ofBits (F := Ideal) .f32 0x00000001#32))

/-- The reciprocal square root of the degree on the real atoms, 0 on padding, as a column. -/
def dinvBlk : FVec Ideal S4x256x1 .f32 :=
  select (cmpf .ogt v3 (broadcast S4x256x1 (Scalar.ofBits (F := Ideal) .f32 0x00000000#32)))
    (rsqrt (degBlk v25 v35 v36)) (broadcast S4x256x1 (Scalar.ofBits (F := Ideal) .f32 0x00000000#32))

/-- The body's Laplacian payload is built from the pieces above. -/
theorem pay10_eq : k0_pay10 (F := Ideal) v3 v25 v28 v35 v36
    = subf (mulf v28 (broadcastTo S4x256x256 v3 broadcasts_S4x256x1_S4x256x256))
        (mulf (mulf (broadcastTo S4x256x256 (dinvBlk v3 v25 v35 v36) broadcasts_S4x256x1_S4x256x256) (affBlk v25 v35 v36))
          (broadcastTo S4x256x256 (transpose S4x1x256 [0, 2, 1] (dinvBlk v3 v25 v35 v36) transposes_S4x256x1_p0_2_1_S4x1x256)
            broadcasts_S4x1x256_S4x256x256)) := rfl

section Known
variable (h3 : ∀ n : Fin 256, v3 (ix3 g n (0 : Fin 1)) = mask Cnt b n)
  (h25 : ∀ i j : Fin 256, v25 (ix3 g i j) = d2 X Cnt Met b i j)
  (h28 : ∀ i j : Fin 256, v28 (ix3 g i j) = eye i j)
  (h35 : ∀ i j : Fin 256, v35 (ix3 g i j) = off Cnt b i j)
  (h36 : ∀ i j : Fin 256, v36 (ix3 g i j) = Ideal.ofBits .f32 0x00000000#32)

include h25 h35 h36 in
theorem blk_aff (i j : Fin 256) : affBlk v25 v35 v36 (ix3 g i j) = aff X Cnt Met b i j := by
  have e : affBlk v25 v35 v36 (ix3 g i j)
      = Ideal.exp (Ideal.ofBits .f32 0x00000000#32
          - Ideal.sqrt (Scalar.select (FloatOps.cmpf (F := Ideal) .ogt (v35 (ix3 g i j)) (v36 (ix3 g i j)))
              (max (v25 (ix3 g i j)) (Ideal.ofBits .f32 0x2B8CBCCC#32)) (Ideal.ofBits .f32 0x3F800000#32)))
        * v35 (ix3 g i j) := rfl
  rw [e, h35 i j, h36 i j, h25 i j]
  rfl

include h25 h35 h36 in
theorem blk_deg (i : Fin 256) : degBlk v25 v35 v36 (ix3 g i (0 : Fin 1)) = deg X Cnt Met b i := by
  have e : degBlk v25 v35 v36 (ix3 g i (0 : Fin 1))
      = shapeCast S4x256x1
          (multiReduction (F := Ideal) .add [2] S4x256 (affBlk v25 v35 v36) 0x00000000#32 reduces_S4x256x256_S4x256 (.inl rfl) rfl)
          shapeCasts_S4x256_S4x256x1 (ix3 g i (0 : Fin 1))
        + Ideal.ofBits .f32 0x00000001#32 := rfl
  rw [e, shapeCast_ab_ab1_apply, laneSum256_apply]
  unfold deg
  congr 1
  exact Finset.sum_congr rfl fun k _ => blk_aff X Cnt Met g b v25 v35 v36 h25 h35 h36 i k

include h3 h25 h35 h36 in
theorem blk_dinv (i : Fin 256) : dinvBlk v3 v25 v35 v36 (ix3 g i (0 : Fin 1)) = dinv X Cnt Met b i := by
  have e : dinvBlk v3 v25 v35 v36 (ix3 g i (0 : Fin 1))
      = Scalar.select (FloatOps.cmpf (F := Ideal) .ogt (v3 (ix3 g i (0 : Fin 1))) (Ideal.ofBits .f32 0x00000000#32))
          (Ideal.rsqrt (degBlk v25 v35 v36 (ix3 g i (0 : Fin 1)))) (Ideal.ofBits .f32 0x00000000#32) := rfl
  rw [e, h3 i, blk_deg X Cnt Met g b v25 v35 v36 h25 h35 h36 i]
  rfl

include h3 h25 h28 h35 h36 in
/-- The body's Laplacian payload at row g is molecule b's learned Laplacian. -/
theorem blk_lapl (i j : Fin 256) : k0_pay10 (F := Ideal) v3 v25 v28 v35 v36 (ix3 g i j) = lapl X Cnt Met b i j := by
  rw [pay10_eq]
  show v28 (ix3 g i j) * broadcastTo S4x256x256 v3 broadcasts_S4x256x1_S4x256x256 (ix3 g i j)
      - (broadcastTo S4x256x256 (dinvBlk v3 v25 v35 v36) broadcasts_S4x256x1_S4x256x256 (ix3 g i j)
          * affBlk v25 v35 v36 (ix3 g i j))
        * broadcastTo S4x256x256 (transpose S4x1x256 [0, 2, 1] (dinvBlk v3 v25 v35 v36) transposes_S4x256x1_p0_2_1_S4x1x256)
            broadcasts_S4x1x256_S4x256x256 (ix3 g i j) = _
  rw [broadcastTo_ab1_apply, broadcastTo_ab1_apply, broadcastTo_a1c_apply, transpose_col_row_apply,
    h28 i j, h3 i, blk_dinv X Cnt Met g b v3 v25 v35 v36 h3 h25 h35 h36 i,
    blk_dinv X Cnt Met g b v3 v25 v35 v36 h3 h25 h35 h36 j, blk_aff X Cnt Met g b v25 v35 v36 h25 h35 h36 i j]
  rfl

end Known

end Cert.GraphConv.Block

end
-- ==== Proof.Algebra.lean ====
/-
  The laws that join the two arrangements of the computation, on the extended reals.

  * The affinity is symmetric in its two atoms: the squared distance is (|u|² + |v|²) − 2⟨u, v⟩, the validity factor is
    (mask i · mask j) · (1 − δ i j), and both are unchanged by swapping i and j because + and · commute. So a row sum
    and a column sum of the affinity agree.
  * The degree is a sum of products of nonnegative factors (an exponential, two masks, 1 − δ) plus a nonnegative literal,
    so it is nonnegative whatever the inputs are; and on the nonnegative extended reals 1 / √d is the reciprocal
    square root d ↦ 1/√d with the same conventions at 0 and at +∞.
  * A sum over 512 weight rows taken order-major (row 128·k + f) is the same sum taken feature-major (row 4·f + k).
  No finiteness of the inputs is used anywhere.
-/
import proofs.«113123_j64510408786278_2_alg».proof.Proof.Spec
import Idealize.ShloMosaic.PureOps.Ideal.Laws

noncomputable section

namespace Cert.GraphConv

open Idealize.ShloMosaic Idealize.ShloMosaic.ValueIdx

variable (X : (⟨3, ![256, 256, 128]⟩ : Shape).Idx → EReal) (Lap : (⟨3, ![256, 256, 256]⟩ : Shape).Idx → EReal)
  (Cnt : (⟨1, ![256]⟩ : Shape).Idx → BitVec 32) (Met : (⟨2, ![128, 128]⟩ : Shape).Idx → EReal)
  (Wt : (⟨2, ![512, 256]⟩ : Shape).Idx → EReal) (Bias : (⟨1, ![256]⟩ : Shape).Idx → EReal)

/-! ## The literals -/

/-- The word of 1.0 denotes 1. -/
theorem one_word : Ideal.ofBits .f32 0x3F800000#32 = 1 := by
  simp [Ideal.ofBits, Ideal.ieee, -EReal.coe_mul]; norm_num

/-- The smallest positive float denotes a nonnegative number. -/
theorem tiny_nonneg : (0 : EReal) ≤ Ideal.ofBits .f32 0x00000001#32 := by
  simp [Ideal.ofBits, Ideal.ieee, -EReal.coe_mul]

/-! ## Nonnegativity -/

/-- An unsigned integer read as a float is a natural number, so it is nonnegative. -/
theorem uitofp_nonneg {w : Nat} (v : BitVec w) : (0 : EReal) ≤ FloatOps.uitofp (F := Ideal) .f32 v := by
  show (0 : EReal) ≤ ((v.toNat : ℝ) : EReal)
  exact EReal.coe_nonneg.2 (Nat.cast_nonneg _)

/-- A single bit read as a float is 0 or 1. -/
theorem uitofp_bit (v : BitVec 1) :
    FloatOps.uitofp (F := Ideal) .f32 v = 0 ∨ FloatOps.uitofp (F := Ideal) .f32 v = 1 := by
  rcases (by decide : ∀ v : BitVec 1, v = 0#1 ∨ v = 1#1) v with rfl | rfl
  · left; show (((0#1 : BitVec 1).toNat : ℝ) : EReal) = 0; simp
  · right; show (((1#1 : BitVec 1).toNat : ℝ) : EReal) = 1; simp

theorem mask_nonneg (b n : Fin 256) : 0 ≤ mask Cnt b n := uitofp_nonneg _

theorem one_sub_eye_nonneg (i j : Fin 256) : 0 ≤ Ideal.ofBits .f32 0x3F800000#32 - eye i j := by
  rw [one_word]
  unfold eye
  rcases uitofp_bit (IntOp.cmpi .eq (IntOp.addi (BitVec.ofNat 32 i.val) 0#32) (BitVec.ofNat 32 j.val)) with h | h <;> rw [h]
  · show (0 : EReal) ≤ ((1 : ℝ) : EReal) - ((0 : ℝ) : EReal)
    rw [← EReal.coe_sub]; exact EReal.coe_nonneg.2 (by norm_num)
  · show (0 : EReal) ≤ ((1 : ℝ) : EReal) - ((1 : ℝ) : EReal)
    rw [← EReal.coe_sub]; exact EReal.coe_nonneg.2 (by norm_num)

/-- The exponential is nonnegative on the whole extended line. -/
theorem exp_nonneg (x : EReal) : 0 ≤ Ideal.exp x := by
  induction x using EReal.rec with
  | bot => simp
  | top => simp
  | coe r => rw [Ideal.exp_coe]; exact EReal.coe_nonneg.2 (Real.exp_pos r).le

theorem off_nonneg (b i j : Fin 256) : 0 ≤ off Cnt b i j :=
  EReal.mul_nonneg (EReal.mul_nonneg (mask_nonneg Cnt b i) (mask_nonneg Cnt b j)) (one_sub_eye_nonneg i j)

theorem aff_nonneg (b i j : Fin 256) : 0 ≤ aff X Cnt Met b i j :=
  EReal.mul_nonneg (exp_nonneg _) (off_nonneg Cnt b i j)

/-- The degree is nonnegative. -/
theorem deg_nonneg (b i : Fin 256) : 0 ≤ deg X Cnt Met b i :=
  add_nonneg (Finset.sum_nonneg fun j _ => aff_nonneg X Cnt Met b i j) tiny_nonneg

/-! ## The reciprocal square root -/

/-- On the nonnegative extended reals, 1 divided by the square root is the reciprocal square root: both are +∞ at 0,
    0 at +∞ and (√d)⁻¹ in between. (Below zero the two differ, which is why the degree's sign matters.) -/
theorem div_one_sqrt_eq_rsqrt (d : EReal) (h : 0 ≤ d) :
    Ideal.div (Ideal.ofBits .f32 0x3F800000#32) (Ideal.sqrt d) = Ideal.rsqrt d := by
  rw [one_word]
  induction d using EReal.rec with
  | bot => exact absurd h (by simp)
  | top => simp [Ideal.div]
  | coe r =>
    have hr : 0 ≤ r := EReal.coe_nonneg.1 h
    rcases hr.eq_or_lt with h0 | hpos
    · subst h0
      rw [Ideal.sqrt_coe, Ideal.rsqrt_coe]
      simp [Ideal.div]
    · have hs : Real.sqrt r ≠ 0 := (Real.sqrt_pos.2 hpos).ne'
      rw [Ideal.sqrt_coe, Ideal.rsqrt_coe, if_neg (not_lt.2 hr), if_neg (not_lt.2 hr), if_neg hpos.ne']
      unfold Ideal.div
      rw [if_neg (by exact_mod_cast hs), one_mul, EReal.coe_inv]

/-! ## Symmetry of the affinity -/

theorem eye_symm (i j : Fin 256) : eye i j = eye j i := by
  unfold eye
  congr 1
  simp only [IntOp.cmpi, IntOp.addi, BitVec.add_zero]
  rw [BEq.comm]

theorem mm_symm (b i j : Fin 256) : mm Cnt b i j = mm Cnt b j i := mul_comm _ _

theorem off_symm (b i j : Fin 256) : off Cnt b i j = off Cnt b j i := by
  unfold off; rw [mm_symm Cnt b i j, eye_symm i j]

theorem gram_symm (b i j : Fin 256) : gram X Cnt Met b i j = gram X Cnt Met b j i :=
  Finset.sum_congr rfl fun g _ => mul_comm _ _

theorem d2_symm (b i j : Fin 256) : d2 X Cnt Met b i j = d2 X Cnt Met b j i := by
  unfold d2; rw [gram_symm X Cnt Met b i j, add_comm (sq X Cnt Met b i) (sq X Cnt Met b j)]

theorem d2s_symm (b i j : Fin 256) : d2s X Cnt Met b i j = d2s X Cnt Met b j i := by
  unfold d2s; rw [off_symm Cnt b i j, d2_symm X Cnt Met b i j]

/-- The affinity does not change when its two atoms are swapped. -/
theorem aff_symm (b i j : Fin 256) : aff X Cnt Met b i j = aff X Cnt Met b j i := by
  unfold aff; rw [d2s_symm X Cnt Met b i j, off_symm Cnt b i j]

/-! ## The projection's rows in the other order -/

/-- Row 128·k + f (order-major) against row 4·f + k (feature-major). -/
def rowSwap : Fin 512 ≃ Fin 512 where
  toFun d := ⟨(d.val % 128) * 4 + d.val / 128, by have := d.isLt; omega⟩
  invFun e := ⟨(e.val % 4) * 128 + e.val / 4, by have := e.isLt; omega⟩
  left_inv d := Fin.ext (by have := d.isLt; show ((d.val % 128) * 4 + d.val / 128) % 4 * 128 + ((d.val % 128) * 4 + d.val / 128) / 4 = d.val; omega)
  right_inv e := Fin.ext (by have := e.isLt; show ((e.val % 4) * 128 + e.val / 4) % 128 * 4 + ((e.val % 4) * 128 + e.val / 4) / 128 = e.val; omega)

/-- A sum over the 512 rows taken order-major is the sum taken feature-major. -/
theorem sum_order_major (Φ : Fin 4 → Fin 128 → EReal) (w : Fin 512 → EReal) :
    ∑ d : Fin 512, Φ ⟨d.val / 128, by have := d.isLt; omega⟩ ⟨d.val % 128, Nat.mod_lt _ (by decide)⟩ * w (rowSwap d)
      = ∑ e : Fin 512, Φ ⟨e.val % 4, Nat.mod_lt _ (by decide)⟩ ⟨e.val / 4, by have := e.isLt; omega⟩ * w e := by
  rw [← Equiv.sum_comp rowSwap (fun e : Fin 512 => Φ ⟨e.val % 4, Nat.mod_lt _ (by decide)⟩ ⟨e.val / 4, by have := e.isLt; omega⟩ * w e)]
  refine Finset.sum_congr rfl fun d _ => ?_
  have hd := d.isLt
  have e1 : (⟨(rowSwap d).val % 4, Nat.mod_lt _ (by decide)⟩ : Fin 4) = ⟨d.val / 128, by omega⟩ :=
    Fin.ext (by show ((d.val % 128) * 4 + d.val / 128) % 4 = d.val / 128; omega)
  have e2 : (⟨(rowSwap d).val / 4, by have := (rowSwap d).isLt; omega⟩ : Fin 128) = ⟨d.val % 128, Nat.mod_lt _ (by decide)⟩ :=
    Fin.ext (by show ((d.val % 128) * 4 + d.val / 128) / 4 = d.val % 128; omega)
  rw [e1, e2]

end Cert.GraphConv

end
-- ==== Proof.BlockOutput.lean ====
/-
  The last part of the body's arithmetic at one entry of the four-molecule block, for row g of the block and the
  molecule b that row holds: the Laplacian the recurrence uses (the learned one plus the given one on the valid pairs),
  the three Chebyshev steps c₁ = L c₀, c₂ = 2 L c₁ − c₀, c₃ = 2 L c₂ − c₁ (each a product of matrices molecule by
  molecule), the four orders laid side by side along the feature axis, the projection by one product with the weight
  block (whose row 128·k + f is the weight matrix's row 4·f + k, so the sum is taken in the other order), the bias, the
  mask and the clamp at zero. As before everything is read over VARIABLES known at row g.
-/
import proofs.«113123_j64510408786278_2_alg».proof.Proof.BlockLaplacian
import proofs.«113123_j64510408786278_2_alg».proof.Proof.Algebra

noncomputable section

namespace Cert.GraphConv.Block

open Idealize.ShloMosaic Idealize.ShloMosaic.ValueIdx Cert.KernelIdeal Cert.KernelIdeal.Gen Cert.GraphConv Cert.Rank3Layout

variable (X : (⟨3, ![256, 256, 128]⟩ : Shape).Idx → EReal) (Lap : (⟨3, ![256, 256, 256]⟩ : Shape).Idx → EReal)
  (Cnt : (⟨1, ![256]⟩ : Shape).Idx → BitVec 32) (Met : (⟨2, ![128, 128]⟩ : Shape).Idx → EReal)
  (Wt : (⟨2, ![512, 256]⟩ : Shape).Idx → EReal) (Bias : (⟨1, ![256]⟩ : Shape).Idx → EReal)
variable (g : Fin 4) (b : Fin 256)

/-! ## The two products and the concatenation, read at an entry -/

/-- One Chebyshev step's product, molecule by molecule: entry (g, i, f) is ∑ₖ A(g, i, k) · C(g, k, f). -/
theorem step_apply (A : FVec Ideal S4x256x256 .f32) (C : FVec Ideal S4x256x128 .f32) (g : Fin 4) (i : Fin 256) (f : Fin 128) :
    matmul dot_S4x256x256_S4x256x128_S4x256x128_2_1_1_2_0_0 none A C (constant (F := Ideal) S4x256x128 .f32 0x00000000#32) (ix3 g i f)
      = ∑ k : Fin 256, A (ix3 g i k) * C (ix3 g k f) :=
  Cert.LibBatchedDot.mat_matmul_zero_apply (B := 4) (M := 256) (N := 128) (K := 256)
    Facts₀.dot_S4x256x256_S4x256x128_S4x256x128_2_1_1_2_0_0_wf none A C g i f

/-- The projection's product of the flattened rows with the weight block, at entry (r, o). -/
theorem project_apply (A : FVec Ideal S1024x512 .f32) (W : FVec Ideal S512x256 .f32) (r : Fin 1024) (o : Fin 256) :
    matmul dot_S1024x512_S512x256_S1024x256_1_0_0_1_n_n none A W (constant (F := Ideal) S1024x256 .f32 0x00000000#32) (ix2 r o)
      = ∑ d : Fin 512, A (ix2 r d) * W (ix2 d o) :=
  Cert.LibPlainDot.matmul_zero_apply (M := 1024) (K := 512) (N := 256)
    Facts₀.dot_S1024x512_S512x256_S1024x256_1_0_0_1_n_n_wf none A W r o

/-- Four [4, 256, 128] blocks laid side by side along the last axis: column 128·k + f of the result is column f of
    block k. -/
theorem cat_apply (p0 p1 p2 p3 : FVec Ideal S4x256x128 .f32) (g : Fin 4) (i : Fin 256) (f : Fin 128) (d : Fin 512) :
    (d.val = f.val →
      concatenate S4x256x512 2 [⟨S4x256x128, p0⟩, ⟨S4x256x128, p1⟩, ⟨S4x256x128, p2⟩, ⟨S4x256x128, p3⟩]
        concatenates_S4x256x128_S4x256x128_S4x256x128_S4x256x128_S4x256x512_d2 (ix3 g i d) = p0 (ix3 g i f))
    ∧ (d.val = 128 + f.val →
      concatenate S4x256x512 2 [⟨S4x256x128, p0⟩, ⟨S4x256x128, p1⟩, ⟨S4x256x128, p2⟩, ⟨S4x256x128, p3⟩]
        concatenates_S4x256x128_S4x256x128_S4x256x128_S4x256x128_S4x256x512_d2 (ix3 g i d) = p1 (ix3 g i f))
    ∧ (d.val = 256 + f.val →
      concatenate S4x256x512 2 [⟨S4x256x128, p0⟩, ⟨S4x256x128, p1⟩, ⟨S4x256x128, p2⟩, ⟨S4x256x128, p3⟩]
        concatenates_S4x256x128_S4x256x128_S4x256x128_S4x256x128_S4x256x512_d2 (ix3 g i d) = p2 (ix3 g i f))
    ∧ (d.val = 384 + f.val →
      concatenate S4x256x512 2 [⟨S4x256x128, p0⟩, ⟨S4x256x128, p1⟩, ⟨S4x256x128, p2⟩, ⟨S4x256x128, p3⟩]
        concatenates_S4x256x128_S4x256x128_S4x256x128_S4x256x128_S4x256x512_d2 (ix3 g i d) = p3 (ix3 g i f)) := by
  have hoff : ∀ c : Fin 3, c.cast (rfl : S4x256x128.rank = S4x256x512.rank) ≠ (2 : Fin 3) →
      ((ix3 g i f : S4x256x128.Idx) c).val = ((ix3 g i d : S4x256x512.Idx) (c.cast rfl)).val := fun c hc => by
    match c with
    | ⟨0, _⟩ => rfl
    | ⟨1, _⟩ => rfl
    | ⟨2, _⟩ => exact absurd rfl hc
  refine ⟨fun hd => ?_, fun hd => ?_, fun hd => ?_, fun hd => ?_⟩
  · exact concatenate_apply_piece (t := S4x256x512) (2 : Fin 3) [⟨S4x256x128, p0⟩, ⟨S4x256x128, p1⟩, ⟨S4x256x128, p2⟩, ⟨S4x256x128, p3⟩]
      concatenates_S4x256x128_S4x256x128_S4x256x128_S4x256x128_S4x256x512_d2 (ix3 g i d) 0 (by show (0 : ℕ) < 4; omega) S4x256x128 p0 rfl rfl 0 rfl (ix3 g i f) hoff
      (by show 0 + f.val = d.val; omega)
  · exact concatenate_apply_piece (t := S4x256x512) (2 : Fin 3) [⟨S4x256x128, p0⟩, ⟨S4x256x128, p1⟩, ⟨S4x256x128, p2⟩, ⟨S4x256x128, p3⟩]
      concatenates_S4x256x128_S4x256x128_S4x256x128_S4x256x128_S4x256x512_d2 (ix3 g i d) 1 (by show (1 : ℕ) < 4; omega) S4x256x128 p1 rfl rfl 128 rfl (ix3 g i f) hoff
      (by show 128 + f.val = d.val; omega)
  · exact concatenate_apply_piece (t := S4x256x512) (2 : Fin 3) [⟨S4x256x128, p0⟩, ⟨S4x256x128, p1⟩, ⟨S4x256x128, p2⟩, ⟨S4x256x128, p3⟩]
      concatenates_S4x256x128_S4x256x128_S4x256x128_S4x256x128_S4x256x512_d2 (ix3 g i d) 2 (by show (2 : ℕ) < 4; omega) S4x256x128 p2 rfl rfl 256 rfl (ix3 g i f) hoff
      (by show 256 + f.val = d.val; omega)
  · exact concatenate_apply_piece (t := S4x256x512) (2 : Fin 3) [⟨S4x256x128, p0⟩, ⟨S4x256x128, p1⟩, ⟨S4x256x128, p2⟩, ⟨S4x256x128, p3⟩]
      concatenates_S4x256x128_S4x256x128_S4x256x128_S4x256x128_S4x256x512_d2 (ix3 g i d) 3 (by show (3 : ℕ) < 4; omega) S4x256x128 p3 rfl rfl 384 rfl (ix3 g i f) hoff
      (by show 384 + f.val = d.val; omega)

/-! ## The recurrence and the projection over variables known at row g -/

variable (v1 : FVec Ideal S4x256x256 .f32) (v3 : FVec Ideal S4x256x1 .f32) (v8 : FVec Ideal S512x256 .f32)
  (v9 : FVec Ideal S256 .f32) (v11 : FVec Ideal S4x256x128 .f32) (v25 v28 v32 v35 v36 : FVec Ideal S4x256x256 .f32)

/-- The Laplacian the recurrence uses, over the block. -/
def lfullBlk : FVec Ideal S4x256x256 .f32 := addf (k0_pay10 (F := Ideal) v3 v25 v28 v35 v36) (mulf v1 v32)

/-- First order over the block. -/
def c1Blk : FVec Ideal S4x256x128 .f32 :=
  matmul dot_S4x256x256_S4x256x128_S4x256x128_2_1_1_2_0_0 none (lfullBlk v1 v3 v25 v28 v32 v35 v36) v11
    (constant (F := Ideal) S4x256x128 .f32 0x00000000#32)

/-- Second order over the block. -/
def c2Blk : FVec Ideal S4x256x128 .f32 :=
  subf (mulf (broadcast S4x256x128 (Scalar.ofBits (F := Ideal) .f32 0x40000000#32))
      (matmul dot_S4x256x256_S4x256x128_S4x256x128_2_1_1_2_0_0 none (lfullBlk v1 v3 v25 v28 v32 v35 v36)
        (c1Blk v1 v3 v11 v25 v28 v32 v35 v36) (constant (F := Ideal) S4x256x128 .f32 0x00000000#32))) v11

/-- Third order over the block. -/
def c3Blk : FVec Ideal S4x256x128 .f32 :=
  subf (mulf (broadcast S4x256x128 (Scalar.ofBits (F := Ideal) .f32 0x40000000#32))
      (matmul dot_S4x256x256_S4x256x128_S4x256x128_2_1_1_2_0_0 none (lfullBlk v1 v3 v25 v28 v32 v35 v36)
        (c2Blk v1 v3 v11 v25 v28 v32 v35 v36) (constant (F := Ideal) S4x256x128 .f32 0x00000000#32)))
    (c1Blk v1 v3 v11 v25 v28 v32 v35 v36)

/-- The four orders side by side. -/
def catBlk : FVec Ideal S4x256x512 .f32 :=
  concatenate S4x256x512 2 [⟨S4x256x128, v11⟩, ⟨S4x256x128, c1Blk v1 v3 v11 v25 v28 v32 v35 v36⟩,
      ⟨S4x256x128, c2Blk v1 v3 v11 v25 v28 v32 v35 v36⟩, ⟨S4x256x128, c3Blk v1 v3 v11 v25 v28 v32 v35 v36⟩]
    concatenates_S4x256x128_S4x256x128_S4x256x128_S4x256x128_S4x256x512_d2

/-- The projection over the block. -/
def projBlk : FVec Ideal S4x256x256 .f32 :=
  shapeCast S4x256x256
    (matmul dot_S1024x512_S512x256_S1024x256_1_0_0_1_n_n none
      (shapeCast S1024x512 (catBlk v1 v3 v11 v25 v28 v32 v35 v36) shapeCasts_S4x256x512_S1024x512) v8
      (constant (F := Ideal) S1024x256 .f32 0x00000000#32))
    shapeCasts_S1024x256_S4x256x256

/-- The body's last payload is built from the pieces above. -/
theorem pay11_eq : k0_pay11 (F := Ideal) v1 v3 v8 v9 v11 v25 v28 v32 v35 v36
    = mulf (addf (projBlk v1 v3 v8 v11 v25 v28 v32 v35 v36)
          (broadcastTo S4x256x256 (shapeCast S1x1x256 v9 shapeCasts_S256_S1x1x256) broadcasts_S1x1x256_S4x256x256))
        (broadcastTo S4x256x256 v3 broadcasts_S4x256x1_S4x256x256) := rfl

section Known
variable (h1 : ∀ i j : Fin 256, v1 (ix3 g i j) = Lap (ix3 b i j))
  (h3 : ∀ n : Fin 256, v3 (ix3 g n (0 : Fin 1)) = mask Cnt b n)
  (h8 : ∀ (d : Fin 512) (o : Fin 256), v8 (ix2 d o) = Wt (ix2 (rowSwap d) o))
  (h9 : ∀ o : Fin 256, v9 (ix1 o) = Bias (ix1 o))
  (h11 : ∀ (n : Fin 256) (f : Fin 128), v11 (ix3 g n f) = xm X Cnt b n f)
  (h25 : ∀ i j : Fin 256, v25 (ix3 g i j) = d2 X Cnt Met b i j)
  (h28 : ∀ i j : Fin 256, v28 (ix3 g i j) = eye i j)
  (h32 : ∀ i j : Fin 256, v32 (ix3 g i j) = mm Cnt b i j)
  (h35 : ∀ i j : Fin 256, v35 (ix3 g i j) = off Cnt b i j)
  (h36 : ∀ i j : Fin 256, v36 (ix3 g i j) = Ideal.ofBits .f32 0x00000000#32)

include h1 h3 h25 h28 h32 h35 h36 in
theorem blk_lfull (i j : Fin 256) : lfullBlk v1 v3 v25 v28 v32 v35 v36 (ix3 g i j) = lfull X Lap Cnt Met b i j := by
  have e : lfullBlk v1 v3 v25 v28 v32 v35 v36 (ix3 g i j)
      = k0_pay10 (F := Ideal) v3 v25 v28 v35 v36 (ix3 g i j) + v1 (ix3 g i j) * v32 (ix3 g i j) := rfl
  rw [e, blk_lapl X Cnt Met g b v3 v25 v28 v35 v36 h3 h25 h28 h35 h36 i j, h1 i j, h32 i j]
  rfl

include h1 h3 h11 h25 h28 h32 h35 h36 in
theorem blk_c1 (i : Fin 256) (f : Fin 128) : c1Blk v1 v3 v11 v25 v28 v32 v35 v36 (ix3 g i f) = c1 X Lap Cnt Met b i f := by
  unfold c1Blk c1
  rw [step_apply]
  refine Finset.sum_congr rfl fun k _ => ?_
  rw [blk_lfull X Lap Cnt Met g b v1 v3 v25 v28 v32 v35 v36 h1 h3 h25 h28 h32 h35 h36 i k, h11 k f]

include h1 h3 h11 h25 h28 h32 h35 h36 in
theorem blk_c2 (i : Fin 256) (f : Fin 128) : c2Blk v1 v3 v11 v25 v28 v32 v35 v36 (ix3 g i f) = c2 X Lap Cnt Met b i f := by
  have e : c2Blk v1 v3 v11 v25 v28 v32 v35 v36 (ix3 g i f)
      = Ideal.ofBits .f32 0x40000000#32
          * matmul dot_S4x256x256_S4x256x128_S4x256x128_2_1_1_2_0_0 none (lfullBlk v1 v3 v25 v28 v32 v35 v36)
              (c1Blk v1 v3 v11 v25 v28 v32 v35 v36) (constant (F := Ideal) S4x256x128 .f32 0x00000000#32) (ix3 g i f)
        - v11 (ix3 g i f) := rfl
  rw [e, step_apply, h11 i f]
  unfold c2
  congr 2
  refine Finset.sum_congr rfl fun k _ => ?_
  rw [blk_lfull X Lap Cnt Met g b v1 v3 v25 v28 v32 v35 v36 h1 h3 h25 h28 h32 h35 h36 i k,
    blk_c1 X Lap Cnt Met g b v1 v3 v11 v25 v28 v32 v35 v36 h1 h3 h11 h25 h28 h32 h35 h36 k f]

include h1 h3 h11 h25 h28 h32 h35 h36 in
theorem blk_c3 (i : Fin 256) (f : Fin 128) : c3Blk v1 v3 v11 v25 v28 v32 v35 v36 (ix3 g i f) = c3 X Lap Cnt Met b i f := by
  have e : c3Blk v1 v3 v11 v25 v28 v32 v35 v36 (ix3 g i f)
      = Ideal.ofBits .f32 0x40000000#32
          * matmul dot_S4x256x256_S4x256x128_S4x256x128_2_1_1_2_0_0 none (lfullBlk v1 v3 v25 v28 v32 v35 v36)
              (c2Blk v1 v3 v11 v25 v28 v32 v35 v36) (constant (F := Ideal) S4x256x128 .f32 0x00000000#32) (ix3 g i f)
        - c1Blk v1 v3 v11 v25 v28 v32 v35 v36 (ix3 g i f) := rfl
  rw [e, step_apply, blk_c1 X Lap Cnt Met g b v1 v3 v11 v25 v28 v32 v35 v36 h1 h3 h11 h25 h28 h32 h35 h36 i f]
  unfold c3
  congr 2
  refine Finset.sum_congr rfl fun k _ => ?_
  rw [blk_lfull X Lap Cnt Met g b v1 v3 v25 v28 v32 v35 v36 h1 h3 h25 h28 h32 h35 h36 i k,
    blk_c2 X Lap Cnt Met g b v1 v3 v11 v25 v28 v32 v35 v36 h1 h3 h11 h25 h28 h32 h35 h36 k f]

include h1 h3 h11 h25 h28 h32 h35 h36 in
/-- Column d of the side-by-side block is order d / 128 of feature d % 128. -/
theorem blk_cat (i : Fin 256) (d : Fin 512) :
    catBlk v1 v3 v11 v25 v28 v32 v35 v36 (ix3 g i d)
      = cheb X Lap Cnt Met b i ⟨d.val / 128, by have := d.isLt; omega⟩ ⟨d.val % 128, Nat.mod_lt _ (by decide)⟩ := by
  have hd := d.isLt
  have hq : d.val / 128 = 0 ∨ d.val / 128 = 1 ∨ d.val / 128 = 2 ∨ d.val / 128 = 3 := by omega
  have C := cat_apply v11 (c1Blk v1 v3 v11 v25 v28 v32 v35 v36) (c2Blk v1 v3 v11 v25 v28 v32 v35 v36)
    (c3Blk v1 v3 v11 v25 v28 v32 v35 v36) g i ⟨d.val % 128, Nat.mod_lt _ (by decide)⟩ d
  unfold catBlk
  rcases hq with h | h | h | h
  · have hk : (⟨d.val / 128, by omega⟩ : Fin 4) = 0 := Fin.ext h
    rw [hk, C.1 (by show d.val = d.val % 128; omega), h11]
    rfl
  · have hk : (⟨d.val / 128, by omega⟩ : Fin 4) = 1 := Fin.ext h
    rw [hk, C.2.1 (by show d.val = 128 + d.val % 128; omega),
      blk_c1 X Lap Cnt Met g b v1 v3 v11 v25 v28 v32 v35 v36 h1 h3 h11 h25 h28 h32 h35 h36]
    rfl
  · have hk : (⟨d.val / 128, by omega⟩ : Fin 4) = 2 := Fin.ext h
    rw [hk, C.2.2.1 (by show d.val = 256 + d.val % 128; omega),
      blk_c2 X Lap Cnt Met g b v1 v3 v11 v25 v28 v32 v35 v36 h1 h3 h11 h25 h28 h32 h35 h36]
    rfl
  · have hk : (⟨d.val / 128, by omega⟩ : Fin 4) = 3 := Fin.ext h
    rw [hk, C.2.2.2 (by show d.val = 384 + d.val % 128; omega),
      blk_c3 X Lap Cnt Met g b v1 v3 v11 v25 v28 v32 v35 v36 h1 h3 h11 h25 h28 h32 h35 h36]
    rfl

include h1 h3 h8 h11 h25 h28 h32 h35 h36 in
theorem blk_proj (i o : Fin 256) :
    projBlk v1 v3 v8 v11 v25 v28 v32 v35 v36 (ix3 g i o) = proj X Lap Cnt Met Wt b i o := by
  have hlt : g.val * 256 + i.val < 1024 := by have := g.isLt; have := i.isLt; omega
  unfold projBlk proj
  refine (shapeCast_rows_abc_apply _ _ g i o ⟨g.val * 256 + i.val, hlt⟩ rfl).trans ?_
  rw [project_apply]
  refine Eq.trans (Finset.sum_congr rfl fun d _ => ?_)
    (sum_order_major (cheb X Lap Cnt Met b i) (fun e => Wt (ix2 e o)))
  rw [shapeCast_abc_rows_apply _ _ g i d ⟨g.val * 256 + i.val, hlt⟩ rfl,
    blk_cat X Lap Cnt Met g b v1 v3 v11 v25 v28 v32 v35 v36 h1 h3 h11 h25 h28 h32 h35 h36 i d, h8 d o]

include h1 h3 h8 h9 h11 h25 h28 h32 h35 h36 in
/-- The body's first stored value at row g is molecule b's output. -/
theorem blk_out (i o : Fin 256) :
    k0_pay1 (F := Ideal) (k0_pay11 (F := Ideal) v1 v3 v8 v9 v11 v25 v28 v32 v35 v36) (ix3 g i o) = out X Lap Cnt Met Wt Bias b i o := by
  rw [pay11_eq]
  show max ((projBlk v1 v3 v8 v11 v25 v28 v32 v35 v36 (ix3 g i o)
        + broadcastTo S4x256x256 (shapeCast S1x1x256 v9 shapeCasts_S256_S1x1x256) broadcasts_S1x1x256_S4x256x256 (ix3 g i o))
      * broadcastTo S4x256x256 v3 broadcasts_S4x256x1_S4x256x256 (ix3 g i o)) (Ideal.ofBits .f32 0x00000000#32) = _
  rw [broadcastTo_11c_apply, shapeCast_a_11a_apply, broadcastTo_ab1_apply, h9 o, h3 i,
    blk_proj X Lap Cnt Met Wt g b v1 v3 v8 v11 v25 v28 v32 v35 v36 h1 h3 h8 h11 h25 h28 h32 h35 h36 i o]
  rfl

end Known

end Cert.GraphConv.Block

end
-- ==== Proof.KernelArrays.lean ====
/-
  From blocks to whole arrays. The kernel runs over 64 grid points; point t stages molecules 4·t … 4·t + 3 of the
  features, of the given Laplacian and of the mask column, and the whole of the metric, the identity pattern, the
  regrouped weights and the bias. What it writes back for each result is therefore the specification's function of
  molecule 4·t + g at row g of the block; the 64 blocks tile each result array (molecule b lies in the block of point
  b / 4), so each result array after the run is the specification's function of the argument arrays, entry by entry.
-/
import proofs.«113123_j64510408786278_2_alg».proof.Proof.Gen.KernelIdeal.Value
import proofs.«113123_j64510408786278_2_alg».proof.Proof.RegionInputs
import proofs.«113123_j64510408786278_2_alg».proof.Proof.BlockOutput

noncomputable section

namespace Cert.GraphConv.Whole

open Idealize.ShloMosaic Idealize.ShloMosaic.ValueIdx Idealize.ShloMosaic.TcCoe Idealize.SL.Sem
open Cert.KernelIdeal Cert.KernelIdeal.Gen Cert.GraphConv Cert.GraphConv.Block Cert.GraphConv.Found
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The argument arrays and the two result arrays -/

abbrev aX (c : Dev nD) : S256x256x128.Idx → EReal := (m ((c : Thread nD τ).loc main_arg0))
abbrev aLap (c : Dev nD) : S256x256x256.Idx → EReal := (m ((c : Thread nD τ).loc main_arg1))
abbrev aCnt (c : Dev nD) : S256.Idx → BitVec 32 := (m ((c : Thread nD τ).loc main_arg2))
abbrev aMet (c : Dev nD) : S128x128.Idx → EReal := (m ((c : Thread nD τ).loc main_arg3))
abbrev aWt (c : Dev nD) : S512x256.Idx → EReal := (m ((c : Thread nD τ).loc main_arg4))
abbrev aBias (c : Dev nD) : S256.Idx → EReal := (m ((c : Thread nD τ).loc main_arg5))

/-- The first result array as the specification gives it. -/
def outArr (c : Dev nD) : S256x256x256.Idx → EReal := fun i =>
  out (aX m c) (aLap m c) (aCnt m c) (aMet m c) (aWt m c) (aBias m c) (i 0) (i 1) (i 2)

/-- The second result array as the specification gives it. -/
def laplArr (c : Dev nD) : S256x256x256.Idx → EReal := fun i =>
  lapl (aX m c) (aCnt m c) (aMet m c) (i 0) (i 1) (i 2)

/-! ## Where each window's block sits -/

/-- The printed index maps, decided once over the 64 grid points: the five windows cut along the molecule axis sit at
    block t of that axis and block 0 of the others; the four whole-array windows sit at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 3) = t.val ∧ win0_7.index t (1 : Fin 3) = 0 ∧ win0_7.index t (2 : Fin 3) = 0
    ∧ win0_8.index t (0 : Fin 3) = t.val ∧ win0_8.index t (1 : Fin 3) = 0 ∧ win0_8.index t (2 : Fin 3) = 0 :=
  (by decide +kernel : ∀ t : Fin grid0.N, _)

/-- The molecule that row g of point t's block holds. -/
abbrev mol (t : Fin cfg0.N) (g : Fin 4) : Fin 256 :=
  ⟨4 * t.val + g.val, by have : t.val < 64 := t.isLt; have := g.isLt; omega⟩

/-- Row g of the feature block at point t is molecule 4·t + g of the feature array. -/
theorem read0 (c : Dev nD) (t : Fin cfg0.N) (g : Fin 4) (n : Fin 256) (f : Fin 128) :
    iblk m c 0 t (ix3 g n f) = aX m c (ix3 (mol t g) n f) := by
  obtain ⟨e0, e1, e2, -⟩ := idx_facts t
  show V m c main_arg0 (((cfg0.win 0).blk t).view.emb (ix3 g n f)) = _
  rw [V_main_arg0]
  refine congrArg _ (funext fun a => Fin.ext ?_)
  match a with
  | ⟨0, _⟩ => show win0_0.index t (0 : Fin 3) * 4 + 1 * g.val = 4 * t.val + g.val; omega
  | ⟨1, _⟩ => show win0_0.index t (1 : Fin 3) * 256 + 1 * n.val = n.val; omega
  | ⟨2, _⟩ => show win0_0.index t (2 : Fin 3) * 128 + 1 * f.val = f.val; omega

/-- Row g of the given-Laplacian block at point t is molecule 4·t + g of that array. -/
theorem read1 (c : Dev nD) (t : Fin cfg0.N) (g : Fin 4) (i j : Fin 256) :
    iblk m c 1 t (ix3 g i j) = aLap m c (ix3 (mol t g) i j) := by
  obtain ⟨-, -, -, e0, e1, e2, -⟩ := idx_facts t
  show V m c main_arg1 (((cfg0.win 1).blk t).view.emb (ix3 g i j)) = _
  rw [V_main_arg1]
  refine congrArg _ (funext fun a => Fin.ext ?_)
  match a with
  | ⟨0, _⟩ => show win0_1.index t (0 : Fin 3) * 4 + 1 * g.val = 4 * t.val + g.val; omega
  | ⟨1, _⟩ => show win0_1.index t (1 : Fin 3) * 256 + 1 * i.val = i.val; omega
  | ⟨2, _⟩ => show win0_1.index t (2 : Fin 3) * 256 + 1 * j.val = j.val; omega

/-- Row g of the mask block at point t is molecule 4·t + g's mask. -/
theorem read2 (c : Dev nD) (t : Fin cfg0.N) (g : Fin 4) (n : Fin 256) :
    iblk m c 2 t (ix3 g n (0 : Fin 1)) = mask (aCnt m c) (mol t g) n := by
  obtain ⟨-, -, -, -, -, -, e0, e1, e2, -⟩ := idx_facts t
  refine Eq.trans ?_ (found_mask m c (mol t g) n)
  show V m c main_v7 (((cfg0.win 2).blk t).view.emb (ix3 g n (0 : Fin 1))) = _
  refine congrArg _ (funext fun a => Fin.ext ?_)
  match a with
  | ⟨0, _⟩ => show win0_2.index t (0 : Fin 3) * 4 + 1 * g.val = 4 * t.val + g.val; omega
  | ⟨1, _⟩ => show win0_2.index t (1 : Fin 3) * 256 + 1 * n.val = n.val; omega
  | ⟨2, _⟩ => show win0_2.index t (2 : Fin 3) * 1 + 1 * 0 = 0; omega

/-- The metric block at every point is the metric array. -/
theorem read3 (c : Dev nD) (t : Fin cfg0.N) (f q : Fin 128) : iblk m c 3 t (ix2 f q) = aMet m c (ix2 f q) := by
  obtain ⟨-, -, -, -, -, -, -, -, -, e0, e1, -⟩ := idx_facts t
  show V m c main_arg3 (((cfg0.win 3).blk t).view.emb (ix2 f q)) = _
  rw [V_main_arg3]
  refine congrArg _ (funext fun a => Fin.ext ?_)
  match a with
  | ⟨0, _⟩ => show win0_3.index t (0 : Fin 2) * 128 + 1 * f.val = f.val; omega
  | ⟨1, _⟩ => show win0_3.index t (1 : Fin 2) * 128 + 1 * q.val = q.val; omega

/-- The identity block at every point is the identity pattern. -/
theorem read4 (c : Dev nD) (t : Fin cfg0.N) (i j : Fin 256) : iblk m c 4 t (ix2 i j) = eye i j := by
  obtain ⟨-, -, -, -, -, -, -, -, -, -, -, e0, e1, -⟩ := idx_facts t
  refine Eq.trans ?_ (found_eye m c i j)
  show V m c main_v13 (((cfg0.win 4).blk t).view.emb (ix2 i j)) = _
  refine congrArg _ (funext fun a => Fin.ext ?_)
  match a with
  | ⟨0, _⟩ => show win0_4.index t (0 : Fin 2) * 256 + 1 * i.val = i.val; omega
  | ⟨1, _⟩ => show win0_4.index t (1 : Fin 2) * 256 + 1 * j.val = j.val; omega

/-- The weight block at every point is the weight matrix with its rows regrouped. -/
theorem read5 (c : Dev nD) (t : Fin cfg0.N) (d : Fin 512) (o : Fin 256) :
    iblk m c 5 t (ix2 d o) = aWt m c (ix2 (rowSwap d) o) := by
  obtain ⟨-, -, -, -, -, -, -, -, -, -, -, -, -, e0, e1, -⟩ := idx_facts t
  refine Eq.trans ?_ (found_weights m c d o)
  show V m c main_v16 (((cfg0.win 5).blk t).view.emb (ix2 d o)) = _
  refine congrArg _ (funext fun a => Fin.ext ?_)
  match a with
  | ⟨0, _⟩ => show win0_5.index t (0 : Fin 2) * 512 + 1 * d.val = d.val; omega
  | ⟨1, _⟩ => show win0_5.index t (1 : Fin 2) * 256 + 1 * o.val = o.val; omega

/-- The bias block at every point is the bias. -/
theorem read6 (c : Dev nD) (t : Fin cfg0.N) (o : Fin 256) : iblk m c 6 t (ix1 o) = aBias m c (ix1 o) := by
  obtain ⟨-, -, -, -, -, -, -, -, -, -, -, -, -, -, -, e0, -⟩ := idx_facts t
  show V m c main_arg5 (((cfg0.win 6).blk t).view.emb (ix1 o)) = _
  rw [V_main_arg5]
  refine congrArg _ (funext fun a => Fin.ext ?_)
  match a with
  | ⟨0, _⟩ => show win0_6.index t (0 : Fin 1) * 256 + 1 * o.val = o.val; omega

/-! ## What point t writes back -/

/-- Entry (g, i, o) of point t's block of a result array is entry (4·t + g, i, o) of the array. -/
theorem emb7 (t : Fin cfg0.N) (g : Fin 4) (i o : Fin 256) :
    ((cfg0.win 7).blk t).view.emb (ix3 g i o) = ix3 (mol t g) i o := by
  obtain ⟨-, -, -, -, -, -, -, -, -, -, -, -, -, -, -, -, e0, e1, e2, -⟩ := idx_facts t
  refine funext fun a => Fin.ext ?_
  match a with
  | ⟨0, _⟩ => show win0_7.index t (0 : Fin 3) * 4 + 1 * g.val = 4 * t.val + g.val; omega
  | ⟨1, _⟩ => show win0_7.index t (1 : Fin 3) * 256 + 1 * i.val = i.val; omega
  | ⟨2, _⟩ => show win0_7.index t (2 : Fin 3) * 256 + 1 * o.val = o.val; omega

theorem emb8 (t : Fin cfg0.N) (g : Fin 4) (i j : Fin 256) :
    ((cfg0.win 8).blk t).view.emb (ix3 g i j) = ix3 (mol t g) i j := by
  obtain ⟨-, -, -, -, -, -, -, -, -, -, -, -, -, -, -, -, -, -, -, e0, e1, e2⟩ := idx_facts t
  refine funext fun a => Fin.ext ?_
  match a with
  | ⟨0, _⟩ => show win0_8.index t (0 : Fin 3) * 4 + 1 * g.val = 4 * t.val + g.val; omega
  | ⟨1, _⟩ => show win0_8.index t (1 : Fin 3) * 256 + 1 * i.val = i.val; omega
  | ⟨2, _⟩ => show win0_8.index t (2 : Fin 3) * 256 + 1 * j.val = j.val; omega

/-- Point t writes back, for the first result, block t of the specification's array. -/
theorem flushed7_eq (c : Dev nD) (t : Fin cfg0.N) :
    (dats m 0 c).flushed 7 t = ((cfg0.win 7).blk t).view.read (Elt Ideal) (outArr m c) := by
  rw [Cert.KernelIdeal.Value.flushed7]
  unfold Gen.out0_7
  rw [View.canon_unit_zero hz3]
  simp only [View.ld_unit_zero (S := S4x256x128) hz3, View.ld_unit_zero (S := S4x256x256) hz3,
    View.ld_unit_zero (S := S4x256x1) hz3, View.ld_unit_zero (S := S128x128) hz2, View.ld_unit_zero (S := S256x256) hz2,
    View.ld_unit_zero (S := S512x256) hz2, View.ld_unit_zero (S := S256) hz1]
  funext j
  obtain ⟨g, i, o, rfl⟩ : ∃ (g : Fin 4) (i o : Fin 256), j = ix3 g i o := ⟨j 0, j 1, j 2, eq_ix3 j⟩
  have hX := read0 m c t g
  have hM := read2 m c t g
  have hMet := read3 m c t
  have hE := read4 m c t
  refine Eq.trans (blk_out (aX m c) (aLap m c) (aCnt m c) (aMet m c) (aWt m c) (aBias m c) g (mol t g)
    (iblk m c 1 t) (k0_pay2 (F := Ideal) (iblk m c 2 t)) (k0_pay3 (F := Ideal) (iblk m c 5 t)) (iblk m c 6 t)
    (k0_pay4 (F := Ideal) (iblk m c 0 t) (iblk m c 2 t)) (k0_pay5 (F := Ideal) (iblk m c 0 t) (iblk m c 2 t) (iblk m c 3 t))
    (k0_pay6 (F := Ideal) (iblk m c 4 t)) (k0_pay7 (F := Ideal) (iblk m c 2 t))
    (k0_pay8 (F := Ideal) (iblk m c 2 t) (iblk m c 4 t)) (k0_pay9 (F := Ideal))
    (read1 m c t g)
    (blk_mask (aCnt m c) g (mol t g) (iblk m c 2 t) hM)
    (fun d o => (congrFun (shapeCast_self (iblk m c 5 t) shapeCasts_S512x256_S512x256) (ix2 d o)).trans (read5 m c t d o))
    (read6 m c t)
    (blk_xm (aX m c) (aCnt m c) g (mol t g) (iblk m c 0 t) (iblk m c 2 t) hX hM)
    (blk_d2 (aX m c) (aCnt m c) (aMet m c) g (mol t g) (iblk m c 0 t) (iblk m c 2 t) (iblk m c 3 t) hX hM hMet)
    (blk_eye g (iblk m c 4 t) hE)
    (blk_mm (aCnt m c) g (mol t g) (iblk m c 2 t) hM)
    (blk_off (aCnt m c) g (mol t g) (iblk m c 2 t) (iblk m c 4 t) hM hE)
    (blk_zero g) i o) ?_
  show outArr m c (ix3 (mol t g) i o) = outArr m c (((cfg0.win 7).blk t).view.emb (ix3 g i o))
  rw [emb7 t g i o]

/-- Point t writes back, for the second result, block t of the specification's array. -/
theorem flushed8_eq (c : Dev nD) (t : Fin cfg0.N) :
    (dats m 0 c).flushed 8 t = ((cfg0.win 8).blk t).view.read (Elt Ideal) (laplArr m c) := by
  rw [Cert.KernelIdeal.Value.flushed8]
  unfold Gen.out0_8
  rw [View.canon_unit_zero hz3]
  simp only [View.ld_unit_zero (S := S4x256x128) hz3, View.ld_unit_zero (S := S4x256x1) hz3,
    View.ld_unit_zero (S := S128x128) hz2, View.ld_unit_zero (S := S256x256) hz2]
  funext j
  obtain ⟨g, i, k, rfl⟩ : ∃ (g : Fin 4) (i k : Fin 256), j = ix3 g i k := ⟨j 0, j 1, j 2, eq_ix3 j⟩
  have hX := read0 m c t g
  have hM := read2 m c t g
  have hMet := read3 m c t
  have hE := read4 m c t
  refine Eq.trans (blk_lapl (aX m c) (aCnt m c) (aMet m c) g (mol t g)
    (k0_pay2 (F := Ideal) (iblk m c 2 t)) (k0_pay5 (F := Ideal) (iblk m c 0 t) (iblk m c 2 t) (iblk m c 3 t))
    (k0_pay6 (F := Ideal) (iblk m c 4 t)) (k0_pay8 (F := Ideal) (iblk m c 2 t) (iblk m c 4 t)) (k0_pay9 (F := Ideal))
    (blk_mask (aCnt m c) g (mol t g) (iblk m c 2 t) hM)
    (blk_d2 (aX m c) (aCnt m c) (aMet m c) g (mol t g) (iblk m c 0 t) (iblk m c 2 t) (iblk m c 3 t) hX hM hMet)
    (blk_eye g (iblk m c 4 t) hE)
    (blk_off (aCnt m c) g (mol t g) (iblk m c 2 t) (iblk m c 4 t) hM hE)
    (blk_zero g) i k) ?_
  show laplArr m c (ix3 (mol t g) i k) = laplArr m c (((cfg0.win 8).blk t).view.emb (ix3 g i k))
  rw [emb8 t g i k]

/-! ## The blocks tile the result arrays -/

theorem mem_blk7 (t : Fin cfg0.N) (i : S256x256x256.Idx) :
    i ∈ ((cfg0.win 7).blk t).view.set ↔ ∀ a : Fin 3, win0_7.index t a * S4x256x256.size a ≤ (i a).val
      ∧ (i a).val < win0_7.index t a * S4x256x256.size a + S4x256x256.size a := by
  show i ∈ ((View.whole main_v17_0).slice (win0_7.rect t)).set ↔ _
  rw [View.set_slice_whole, Rect.mem_set_unit]
  exact Iff.rfl

theorem mem_blk8 (t : Fin cfg0.N) (i : S256x256x256.Idx) :
    i ∈ ((cfg0.win 8).blk t).view.set ↔ ∀ a : Fin 3, win0_8.index t a * S4x256x256.size a ≤ (i a).val
      ∧ (i a).val < win0_8.index t a * S4x256x256.size a + S4x256x256.size a := by
  show i ∈ ((View.whole main_v17_1).slice (win0_8.rect t)).set ↔ _
  rw [View.set_slice_whole, Rect.mem_set_unit]
  exact Iff.rfl

/-- Every entry of the first result array is in the block of point (molecule / 4). -/
theorem cover7 (i : S256x256x256.Idx) :
    ∃ t : Fin cfg0.N, (cfg0.win 7).flush t = true ∧ i ∈ ((cfg0.win 7).blk t).view.set := by
  have h0 : (i 0).val < 256 := (i 0).isLt
  have h1 : (i 1).val < 256 := (i 1).isLt
  have h2 : (i 2).val < 256 := (i 2).isLt
  have ht : (i 0).val / 4 < 64 := by omega
  refine ⟨⟨(i 0).val / 4, ht⟩, flush0_7 _, ?_⟩
  obtain ⟨-, -, -, -, -, -, -, -, -, -, -, -, -, -, -, -, e0, e1, e2, -⟩ := idx_facts ⟨(i 0).val / 4, ht⟩
  rw [mem_blk7]
  intro a
  match a with
  | ⟨0, _⟩ =>
    show win0_7.index ⟨(i 0).val / 4, ht⟩ (0 : Fin 3) * 4 ≤ (i 0).val ∧ (i 0).val < win0_7.index ⟨(i 0).val / 4, ht⟩ (0 : Fin 3) * 4 + 4
    rw [e0]; show (i 0).val / 4 * 4 ≤ (i 0).val ∧ (i 0).val < (i 0).val / 4 * 4 + 4; omega
  | ⟨1, _⟩ =>
    show win0_7.index ⟨(i 0).val / 4, ht⟩ (1 : Fin 3) * 256 ≤ (i 1).val ∧ (i 1).val < win0_7.index ⟨(i 0).val / 4, ht⟩ (1 : Fin 3) * 256 + 256
    rw [e1]; omega
  | ⟨2, _⟩ =>
    show win0_7.index ⟨(i 0).val / 4, ht⟩ (2 : Fin 3) * 256 ≤ (i 2).val ∧ (i 2).val < win0_7.index ⟨(i 0).val / 4, ht⟩ (2 : Fin 3) * 256 + 256
    rw [e2]; omega

/-- Every entry of the second result array is in the block of point (molecule / 4). -/
theorem cover8 (i : S256x256x256.Idx) :
    ∃ t : Fin cfg0.N, (cfg0.win 8).flush t = true ∧ i ∈ ((cfg0.win 8).blk t).view.set := by
  have h0 : (i 0).val < 256 := (i 0).isLt
  have h1 : (i 1).val < 256 := (i 1).isLt
  have h2 : (i 2).val < 256 := (i 2).isLt
  have ht : (i 0).val / 4 < 64 := by omega
  refine ⟨⟨(i 0).val / 4, ht⟩, flush0_8 _, ?_⟩
  obtain ⟨-, -, -, -, -, -, -, -, -, -, -, -, -, -, -, -, -, -, -, e0, e1, e2⟩ := idx_facts ⟨(i 0).val / 4, ht⟩
  rw [mem_blk8]
  intro a
  match a with
  | ⟨0, _⟩ =>
    show win0_8.index ⟨(i 0).val / 4, ht⟩ (0 : Fin 3) * 4 ≤ (i 0).val ∧ (i 0).val < win0_8.index ⟨(i 0).val / 4, ht⟩ (0 : Fin 3) * 4 + 4
    rw [e0]; show (i 0).val / 4 * 4 ≤ (i 0).val ∧ (i 0).val < (i 0).val / 4 * 4 + 4; omega
  | ⟨1, _⟩ =>
    show win0_8.index ⟨(i 0).val / 4, ht⟩ (1 : Fin 3) * 256 ≤ (i 1).val ∧ (i 1).val < win0_8.index ⟨(i 0).val / 4, ht⟩ (1 : Fin 3) * 256 + 256
    rw [e1]; omega
  | ⟨2, _⟩ =>
    show win0_8.index ⟨(i 0).val / 4, ht⟩ (2 : Fin 3) * 256 ≤ (i 2).val ∧ (i 2).val < win0_8.index ⟨(i 0).val / 4, ht⟩ (2 : Fin 3) * 256 + 256
    rw [e2]; omega

/-- The first result array after the run. -/
theorem final7 (c : Dev nD) : (dats m 0 c).arrAt 7 cfg0.N = outArr m c :=
  (dats m 0 c).arrAt_eq_of_cover 7 (outArr m c) (fun t _ => flushed7_eq m c t) cover7

/-- The second result array after the run. -/
theorem final8 (c : Dev nD) : (dats m 0 c).arrAt 8 cfg0.N = laplArr m c :=
  (dats m 0 c).arrAt_eq_of_cover 8 (laplArr m c) (fun t _ => flushed8_eq m c t) cover8

/-! ## The run, read -/

/-- Every weakly fair execution of the idealized kernel terminates with the two result arrays at the specification's
    functions of the argument arrays, the arguments unchanged. -/
theorem run : θ_run defs (onTc (τ := τ) (main (F := Ideal))) ⟨m, fun _ => 0, ρ⟩ fun r => ∀ c : Dev nD,
      r.2.mem ((c : Thread nD τ).loc main_v17_0) = outArr m c
      ∧ r.2.mem ((c : Thread nD τ).loc main_v17_1) = laplArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final7 m c), (h c).2.1.trans (final8 m c), (h c).2.2⟩)
    (Cert.KernelIdeal.Value.run_blocks m ρ)

end Cert.GraphConv.Whole

end
-- ==== Proof.RefA.lean ====
/-
  The reference program read stage by stage, part one: the atom mask, the masked features, the features in the
  learned metric, their squared lengths, their inner products and the squared distances.
-/
import proofs.«113123_j64510408786278_2_alg».proof.Proof.Spec
import proofs.«113123_j64510408786278_2_alg».proof.Proof.RefRead

noncomputable section

namespace Cert.GraphConv.Ref

open Idealize.ShloMosaic Idealize.ShloMosaic.ValueIdx Cert.ReferenceIdeal Cert.ReferenceIdeal.Read Cert.GraphConv

variable (X : (⟨3, ![256, 256, 128]⟩ : Shape).Idx → EReal) (Lap : (⟨3, ![256, 256, 256]⟩ : Shape).Idx → EReal)
  (Cnt : (⟨1, ![256]⟩ : Shape).Idx → BitVec 32) (Met : (⟨2, ![128, 128]⟩ : Shape).Idx → EReal)
  (Wt : (⟨2, ![512, 256]⟩ : Shape).Idx → EReal) (Bias : (⟨1, ![256]⟩ : Shape).Idx → EReal)

/-- The mask: slot `n` below the atom count of molecule `b`. -/
theorem v6_eq (b n : Fin 256) : val_main_v6 (F := Ideal) Cnt (ix2 b n) = mask Cnt b n := by
  rw [val_main_v6_apply, val_main_v5_apply, val_main_v3_apply, val_main_v4_apply, val_main_v1_apply,
    val_main_v2_apply, val_main_v0_apply]
  have e : idx_main_v2 (idx_main_v4 (ix2 b n)) = ix1 b :=
    funext fun a => Fin.ext (by match a with | ⟨0, _⟩ => rfl)
  rw [e]
  rfl

/-- The masked features. -/
theorem v9_eq (b n : Fin 256) (f : Fin 128) : val_main_v9 (F := Ideal) X Cnt (ix3 b n f) = xm X Cnt b n f := by
  rw [val_main_v9_apply, val_main_v8_apply, val_main_v7_apply]
  have e : idx_main_v7 (idx_main_v8 (ix3 b n f)) = ix2 b n :=
    funext fun a => Fin.ext (by match a with | ⟨0, _⟩ => rfl | ⟨1, _⟩ => rfl)
  rw [e, v6_eq]
  rfl

/-- The features in the learned metric. -/
theorem v10_eq (b n : Fin 256) (g : Fin 128) : val_main_v10 (F := Ideal) X Cnt Met (ix3 b n g) = xw X Cnt Met b n g := by
  rw [val_main_v10_apply]
  unfold xw
  refine Finset.sum_congr rfl fun k _ => ?_
  have e1 : lidx_main_v10 (ix3 b n g) k = ix3 b n k :=
    funext fun a => Fin.ext (by match a with | ⟨0, _⟩ => rfl | ⟨1, _⟩ => rfl | ⟨2, _⟩ => rfl)
  have e2 : ridx_main_v10 (ix3 b n g) k = ix2 k g :=
    funext fun a => Fin.ext (by match a with | ⟨0, _⟩ => rfl | ⟨1, _⟩ => rfl)
  rw [e1, e2, v9_eq]

/-- The squared length of a transformed row: the host's sum starts from the zero word, which is 0. -/
theorem v12_eq (b n : Fin 256) : val_main_v12 (F := Ideal) X Cnt Met (ix2 b n) = sq X Cnt Met b n := by
  rw [val_main_v12_apply, val_main_cst_apply, Ideal.ofBits_def, Ideal.ofBits_zero_f32, zero_add]
  unfold sq
  refine Finset.sum_congr rfl fun k _ => ?_
  have e : idx_main_v12 (ix2 b n) k = ix3 b n k :=
    funext fun a => Fin.ext (by match a with | ⟨0, _⟩ => rfl | ⟨1, _⟩ => rfl | ⟨2, _⟩ => rfl)
  rw [e, val_main_v11_apply, v10_eq]
  rfl

/-- The inner product of two transformed rows. -/
theorem v18_eq (b i j : Fin 256) : val_main_v18 (F := Ideal) X Cnt Met (ix3 b i j) = gram X Cnt Met b i j := by
  rw [val_main_v18_apply]
  unfold gram
  refine Finset.sum_congr rfl fun k _ => ?_
  have e1 : lidx_main_v18 (ix3 b i j) k = ix3 b i k :=
    funext fun a => Fin.ext (by match a with | ⟨0, _⟩ => rfl | ⟨1, _⟩ => rfl | ⟨2, _⟩ => rfl)
  have e2 : ridx_main_v18 (ix3 b i j) k = ix3 b j k :=
    funext fun a => Fin.ext (by match a with | ⟨0, _⟩ => rfl | ⟨1, _⟩ => rfl | ⟨2, _⟩ => rfl)
  rw [e1, e2, v10_eq, v10_eq]

/-- The squared distance. -/
theorem v21_eq (b i j : Fin 256) : val_main_v21 (F := Ideal) X Cnt Met (ix3 b i j) = d2 X Cnt Met b i j := by
  rw [val_main_v21_apply, val_main_v17_apply, val_main_v20_apply, val_main_v15_apply, val_main_v16_apply,
    val_main_v13_apply, val_main_v14_apply, val_main_v19_apply, val_main_cst_0_apply, v18_eq]
  have e1 : idx_main_v13 (idx_main_v15 (ix3 b i j)) = ix2 b i :=
    funext fun a => Fin.ext (by match a with | ⟨0, _⟩ => rfl | ⟨1, _⟩ => rfl)
  have e2 : idx_main_v14 (idx_main_v16 (ix3 b i j)) = ix2 b j :=
    funext fun a => Fin.ext (by match a with | ⟨0, _⟩ => rfl | ⟨1, _⟩ => rfl)
  rw [e1, e2, v12_eq, v12_eq]
  rfl

end Cert.GraphConv.Ref

end
-- ==== Proof.RefB.lean ====
/-
  The reference program read stage by stage, part two: the identity pattern, the validity factors, the floored
  squared distance and the affinity.
-/
import proofs.«113123_j64510408786278_2_alg».proof.Proof.RefA

noncomputable section

namespace Cert.GraphConv.Ref

open Idealize.ShloMosaic Idealize.ShloMosaic.ValueIdx Cert.ReferenceIdeal Cert.ReferenceIdeal.Read Cert.GraphConv

variable (X : (⟨3, ![256, 256, 128]⟩ : Shape).Idx → EReal) (Lap : (⟨3, ![256, 256, 256]⟩ : Shape).Idx → EReal)
  (Cnt : (⟨1, ![256]⟩ : Shape).Idx → BitVec 32) (Met : (⟨2, ![128, 128]⟩ : Shape).Idx → EReal)
  (Wt : (⟨2, ![512, 256]⟩ : Shape).Idx → EReal) (Bias : (⟨1, ![256]⟩ : Shape).Idx → EReal)

/-- The identity pattern. -/
theorem v27_eq (i j : Fin 256) : val_main_v27 (F := Ideal) (ix2 i j) = eye i j := by
  rw [val_main_v27_apply, val_main_v26_apply, val_main_v25_apply, val_main_v22_apply, val_main_v23_apply,
    val_main_v24_apply, val_main_c_apply]
  rfl

/-- Both atoms real. -/
theorem v32_eq (b i j : Fin 256) : val_main_v32 (F := Ideal) Cnt (ix3 b i j) = mm Cnt b i j := by
  rw [val_main_v32_apply, val_main_v30_apply, val_main_v31_apply, val_main_v28_apply, val_main_v29_apply]
  have e1 : idx_main_v28 (idx_main_v30 (ix3 b i j)) = ix2 b i :=
    funext fun a => Fin.ext (by match a with | ⟨0, _⟩ => rfl | ⟨1, _⟩ => rfl)
  have e2 : idx_main_v29 (idx_main_v31 (ix3 b i j)) = ix2 b j :=
    funext fun a => Fin.ext (by match a with | ⟨0, _⟩ => rfl | ⟨1, _⟩ => rfl)
  rw [e1, e2, v6_eq, v6_eq]
  rfl

/-- Both atoms real and distinct. -/
theorem v37_eq (b i j : Fin 256) : val_main_v37 (F := Ideal) Cnt (ix3 b i j) = off Cnt b i j := by
  rw [val_main_v37_apply, v32_eq, val_main_v36_apply, val_main_v35_apply, val_main_v34_apply, val_main_v33_apply,
    val_main_cst_1_apply]
  have e : idx_main_v35 (idx_main_v36 (ix3 b i j)) = ix2 i j :=
    funext fun a => Fin.ext (by match a with | ⟨0, _⟩ => rfl | ⟨1, _⟩ => rfl)
  rw [e, v27_eq]
  rfl

/-- The squared distance floored on the valid pairs, 1 elsewhere. -/
theorem v42_eq (b i j : Fin 256) : val_main_v42 (F := Ideal) X Cnt Met (ix3 b i j) = d2s X Cnt Met b i j := by
  rw [val_main_v42_apply, val_main_v39_apply, val_main_v41_apply, val_main_call0_v1_apply, val_main_call0_v0_apply,
    val_main_cst_4_apply, val_main_v38_apply, val_main_cst_2_apply, val_main_v40_apply, val_main_cst_3_apply,
    v37_eq, v21_eq]
  rfl

/-- The affinity: the host negates the root, which is the zero word minus the root because that word is 0. -/
theorem v46_eq (b i j : Fin 256) : val_main_v46 (F := Ideal) X Cnt Met (ix3 b i j) = aff X Cnt Met b i j := by
  rw [val_main_v46_apply, val_main_v45_apply, val_main_v44_apply, val_main_v43_apply, v42_eq, v37_eq]
  unfold aff
  rw [Ideal.ofBits_zero_f32, zero_sub]
  rfl

end Cert.GraphConv.Ref

end
-- ==== Proof.RefC.lean ====
/-
  The reference program read stage by stage, part three: the degree, its inverse square root and the learned
  Laplacian. The host sums the affinity down a column where the specification sums along a row (the affinity is
  symmetric), and it takes 1 / √d where the specification takes the reciprocal square root (they agree for d ≥ 0).
-/
import proofs.«113123_j64510408786278_2_alg».proof.Proof.RefB
import proofs.«113123_j64510408786278_2_alg».proof.Proof.Algebra

noncomputable section

namespace Cert.GraphConv.Ref

open Idealize.ShloMosaic Idealize.ShloMosaic.ValueIdx Cert.ReferenceIdeal Cert.ReferenceIdeal.Read Cert.GraphConv

variable (X : (⟨3, ![256, 256, 128]⟩ : Shape).Idx → EReal) (Lap : (⟨3, ![256, 256, 256]⟩ : Shape).Idx → EReal)
  (Cnt : (⟨1, ![256]⟩ : Shape).Idx → BitVec 32) (Met : (⟨2, ![128, 128]⟩ : Shape).Idx → EReal)
  (Wt : (⟨2, ![512, 256]⟩ : Shape).Idx → EReal) (Bias : (⟨1, ![256]⟩ : Shape).Idx → EReal)

/-- The degree: the column sum of the affinity is its row sum. -/
theorem v49_eq (b i : Fin 256) : val_main_v49 (F := Ideal) X Cnt Met (ix2 b i) = deg X Cnt Met b i := by
  rw [val_main_v49_apply, val_main_v47_apply, val_main_cst_5_apply, val_main_v48_apply, val_main_cst_6_apply]
  simp only [Ideal.ofBits_def]
  rw [Ideal.ofBits_zero_f32, zero_add]
  have hs : ∑ k : Fin 256, val_main_v46 (F := Ideal) X Cnt Met (idx_main_v47 (ix2 b i) k)
      = ∑ j : Fin 256, aff X Cnt Met b i j :=
    Finset.sum_congr rfl fun k _ => by
      have e : idx_main_v47 (ix2 b i) k = ix3 b k i :=
        funext fun a => Fin.ext (by match a with | ⟨0, _⟩ => rfl | ⟨1, _⟩ => rfl | ⟨2, _⟩ => rfl)
      rw [e, v46_eq, aff_symm]
  rw [hs]
  rfl

/-- The inverse square root of the degree on the real atoms. -/
theorem v55_eq (b i : Fin 256) : val_main_v55 (F := Ideal) X Cnt Met (ix2 b i) = dinv X Cnt Met b i := by
  rw [val_main_v55_apply, val_main_v51_apply, val_main_v54_apply, val_main_v52_apply, val_main_v53_apply,
    val_main_cst_8_apply, val_main_call1_v1_apply, val_main_call1_v0_apply, val_main_cst_9_apply,
    val_main_v50_apply, val_main_cst_7_apply, v6_eq, v49_eq]
  unfold dinv
  rw [← div_one_sqrt_eq_rsqrt (deg X Cnt Met b i) (deg_nonneg X Cnt Met b i)]
  rfl

/-- The learned Laplacian. -/
theorem v67_eq (b i j : Fin 256) : val_main_v67 (F := Ideal) X Cnt Met (ix3 b i j) = lapl X Cnt Met b i j := by
  rw [val_main_v67_apply, val_main_v60_apply, val_main_v66_apply, val_main_v63_apply, val_main_v58_apply,
    val_main_v56_apply, val_main_v59_apply, val_main_v57_apply, val_main_v62_apply, val_main_v61_apply,
    val_main_v65_apply, val_main_v64_apply, v46_eq]
  have e1 : idx_main_v56 (idx_main_v58 (ix3 b i j)) = ix2 i j :=
    funext fun a => Fin.ext (by match a with | ⟨0, _⟩ => rfl | ⟨1, _⟩ => rfl)
  have e2 : idx_main_v57 (idx_main_v59 (ix3 b i j)) = ix2 b i :=
    funext fun a => Fin.ext (by match a with | ⟨0, _⟩ => rfl | ⟨1, _⟩ => rfl)
  have e3 : idx_main_v61 (idx_main_v62 (ix3 b i j)) = ix2 b i :=
    funext fun a => Fin.ext (by match a with | ⟨0, _⟩ => rfl | ⟨1, _⟩ => rfl)
  have e4 : idx_main_v64 (idx_main_v65 (ix3 b i j)) = ix2 b j :=
    funext fun a => Fin.ext (by match a with | ⟨0, _⟩ => rfl | ⟨1, _⟩ => rfl)
  rw [e1, e2, e3, e4, v27_eq, v6_eq, v55_eq, v55_eq]
  rfl

/-- The reference's second result is the specification's learned Laplacian. -/
theorem ref_lapl (b i j : Fin 256) :
    Cert.ReferenceIdeal.Read.val_main_v67 (F := Ideal) X Cnt Met (ix3 b i j) = Cert.GraphConv.lapl X Cnt Met b i j :=
  v67_eq X Cnt Met b i j

end Cert.GraphConv.Ref

end
-- ==== Proof.RefD.lean ====
/-
  The reference program read stage by stage, part four: the full Laplacian and the three Chebyshev orders.
-/
import proofs.«113123_j64510408786278_2_alg».proof.Proof.RefC

noncomputable section

namespace Cert.GraphConv.Ref

open Idealize.ShloMosaic Idealize.ShloMosaic.ValueIdx Cert.ReferenceIdeal Cert.ReferenceIdeal.Read Cert.GraphConv

variable (X : (⟨3, ![256, 256, 128]⟩ : Shape).Idx → EReal) (Lap : (⟨3, ![256, 256, 256]⟩ : Shape).Idx → EReal)
  (Cnt : (⟨1, ![256]⟩ : Shape).Idx → BitVec 32) (Met : (⟨2, ![128, 128]⟩ : Shape).Idx → EReal)
  (Wt : (⟨2, ![512, 256]⟩ : Shape).Idx → EReal) (Bias : (⟨1, ![256]⟩ : Shape).Idx → EReal)

/-- The Laplacian of the recurrence: the learned one plus the given one on the valid pairs. -/
theorem v74_eq (b i j : Fin 256) : val_main_v74 (F := Ideal) X Lap Cnt Met (ix3 b i j) = lfull X Lap Cnt Met b i j := by
  rw [val_main_v74_apply, v67_eq, val_main_v73_apply, val_main_v72_apply, val_main_v70_apply, val_main_v71_apply,
    val_main_v68_apply, val_main_v69_apply]
  have e1 : idx_main_v68 (idx_main_v70 (ix3 b i j)) = ix2 b i :=
    funext fun a => Fin.ext (by match a with | ⟨0, _⟩ => rfl | ⟨1, _⟩ => rfl)
  have e2 : idx_main_v69 (idx_main_v71 (ix3 b i j)) = ix2 b j :=
    funext fun a => Fin.ext (by match a with | ⟨0, _⟩ => rfl | ⟨1, _⟩ => rfl)
  rw [e1, e2, v6_eq, v6_eq]
  rfl

/-- First order. -/
theorem v75_eq (b i : Fin 256) (f : Fin 128) :
    val_main_v75 (F := Ideal) X Lap Cnt Met (ix3 b i f) = c1 X Lap Cnt Met b i f := by
  rw [val_main_v75_apply]
  unfold c1
  refine Finset.sum_congr rfl fun k _ => ?_
  have e1 : lidx_main_v75 (ix3 b i f) k = ix3 b i k :=
    funext fun a => Fin.ext (by match a with | ⟨0, _⟩ => rfl | ⟨1, _⟩ => rfl | ⟨2, _⟩ => rfl)
  have e2 : ridx_main_v75 (ix3 b i f) k = ix3 b k f :=
    funext fun a => Fin.ext (by match a with | ⟨0, _⟩ => rfl | ⟨1, _⟩ => rfl | ⟨2, _⟩ => rfl)
  rw [e1, e2, v74_eq, v9_eq]

/-- The product inside the second order. -/
theorem v76_eq (b i : Fin 256) (f : Fin 128) :
    val_main_v76 (F := Ideal) X Lap Cnt Met (ix3 b i f)
      = ∑ j : Fin 256, lfull X Lap Cnt Met b i j * c1 X Lap Cnt Met b j f := by
  rw [val_main_v76_apply]
  refine Finset.sum_congr rfl fun k _ => ?_
  have e1 : lidx_main_v76 (ix3 b i f) k = ix3 b i k :=
    funext fun a => Fin.ext (by match a with | ⟨0, _⟩ => rfl | ⟨1, _⟩ => rfl | ⟨2, _⟩ => rfl)
  have e2 : ridx_main_v76 (ix3 b i f) k = ix3 b k f :=
    funext fun a => Fin.ext (by match a with | ⟨0, _⟩ => rfl | ⟨1, _⟩ => rfl | ⟨2, _⟩ => rfl)
  rw [e1, e2, v74_eq, v75_eq]

/-- Second order. -/
theorem v79_eq (b i : Fin 256) (f : Fin 128) :
    val_main_v79 (F := Ideal) X Lap Cnt Met (ix3 b i f) = c2 X Lap Cnt Met b i f := by
  rw [val_main_v79_apply, val_main_v78_apply, val_main_v77_apply, val_main_cst_10_apply, v76_eq, v9_eq]
  rfl

/-- The product inside the third order. -/
theorem v80_eq (b i : Fin 256) (f : Fin 128) :
    val_main_v80 (F := Ideal) X Lap Cnt Met (ix3 b i f)
      = ∑ j : Fin 256, lfull X Lap Cnt Met b i j * c2 X Lap Cnt Met b j f := by
  rw [val_main_v80_apply]
  refine Finset.sum_congr rfl fun k _ => ?_
  have e1 : lidx_main_v80 (ix3 b i f) k = ix3 b i k :=
    funext fun a => Fin.ext (by match a with | ⟨0, _⟩ => rfl | ⟨1, _⟩ => rfl | ⟨2, _⟩ => rfl)
  have e2 : ridx_main_v80 (ix3 b i f) k = ix3 b k f :=
    funext fun a => Fin.ext (by match a with | ⟨0, _⟩ => rfl | ⟨1, _⟩ => rfl | ⟨2, _⟩ => rfl)
  rw [e1, e2, v74_eq, v79_eq]

/-- Third order. -/
theorem v83_eq (b i : Fin 256) (f : Fin 128) :
    val_main_v83 (F := Ideal) X Lap Cnt Met (ix3 b i f) = c3 X Lap Cnt Met b i f := by
  rw [val_main_v83_apply, val_main_v82_apply, val_main_v81_apply, val_main_cst_11_apply, v80_eq, v75_eq]
  rfl

end Cert.GraphConv.Ref

end
-- ==== Proof.RefE0.lean ====
/-
  Four arrays of shape [256,256,128,1] joined along the last axis, read at an index: the element with last
  coordinate k is piece k at the same first three coordinates.
-/
import Idealize.ShloMosaic.Lib.Pipeline.Value
import Idealize.ShloMosaic.Lib.ValueIdx

namespace Cert.GraphConv.Ref

open Idealize.ShloMosaic Idealize.ShloMosaic.ValueIdx

/-- The shape of one piece. -/
abbrev P1 : Shape := ⟨4, ![256, 256, 128, 1]⟩
/-- The shape of the joined array. -/
abbrev P4 : Shape := ⟨4, ![256, 256, 128, 4]⟩

/-- Off the joined axis a piece's index and the joined array's index share their coordinates. -/
theorem piece_coords (b i : Fin 256) (f : Fin 128) (k : Fin 4) (c : Fin P1.rank) (hr : P1.rank = P4.rank)
    (hc : c.cast hr ≠ (3 : Fin P4.rank)) :
    ((ix4 b i f (0 : Fin 1) : P1.Idx) c).val = ((ix4 b i f k : P4.Idx) (c.cast hr)).val := by
  match c with
  | ⟨0, _⟩ => rfl
  | ⟨1, _⟩ => rfl
  | ⟨2, _⟩ => rfl
  | ⟨3, _⟩ => exact absurd rfl hc

variable {α : Type} (x0 x1 x2 x3 : P1.Idx → α) (h : Shape.Concatenates [P1, P1, P1, P1] P4 3)

/-- Last coordinate 0: the first piece. -/
theorem concat4_0 (b i : Fin 256) (f : Fin 128) :
    concatenate P4 3 [⟨P1, x0⟩, ⟨P1, x1⟩, ⟨P1, x2⟩, ⟨P1, x3⟩] h (ix4 b i f (⟨0, by decide⟩ : Fin 4))
      = x0 (ix4 b i f (0 : Fin 1)) :=
  concatenate_apply_piece (t := P4) 3 [⟨P1, x0⟩, ⟨P1, x1⟩, ⟨P1, x2⟩, ⟨P1, x3⟩] h (ix4 b i f (⟨0, by decide⟩ : Fin 4))
    0 (by simp) P1 x0 rfl rfl 0 (by rfl) (ix4 b i f (0 : Fin 1))
    (fun c hc => piece_coords b i f _ c rfl hc) rfl

/-- Last coordinate 1: the second piece. -/
theorem concat4_1 (b i : Fin 256) (f : Fin 128) :
    concatenate P4 3 [⟨P1, x0⟩, ⟨P1, x1⟩, ⟨P1, x2⟩, ⟨P1, x3⟩] h (ix4 b i f (⟨1, by decide⟩ : Fin 4))
      = x1 (ix4 b i f (0 : Fin 1)) :=
  concatenate_apply_piece (t := P4) 3 [⟨P1, x0⟩, ⟨P1, x1⟩, ⟨P1, x2⟩, ⟨P1, x3⟩] h (ix4 b i f (⟨1, by decide⟩ : Fin 4))
    1 (by simp) P1 x1 rfl rfl 1 (by rfl) (ix4 b i f (0 : Fin 1))
    (fun c hc => piece_coords b i f _ c rfl hc) rfl

/-- Last coordinate 2: the third piece. -/
theorem concat4_2 (b i : Fin 256) (f : Fin 128) :
    concatenate P4 3 [⟨P1, x0⟩, ⟨P1, x1⟩, ⟨P1, x2⟩, ⟨P1, x3⟩] h (ix4 b i f (⟨2, by decide⟩ : Fin 4))
      = x2 (ix4 b i f (0 : Fin 1)) :=
  concatenate_apply_piece (t := P4) 3 [⟨P1, x0⟩, ⟨P1, x1⟩, ⟨P1, x2⟩, ⟨P1, x3⟩] h (ix4 b i f (⟨2, by decide⟩ : Fin 4))
    2 (by simp) P1 x2 rfl rfl 2 (by rfl) (ix4 b i f (0 : Fin 1))
    (fun c hc => piece_coords b i f _ c rfl hc) rfl

/-- Last coordinate 3: the fourth piece. -/
theorem concat4_3 (b i : Fin 256) (f : Fin 128) :
    concatenate P4 3 [⟨P1, x0⟩, ⟨P1, x1⟩, ⟨P1, x2⟩, ⟨P1, x3⟩] h (ix4 b i f (⟨3, by decide⟩ : Fin 4))
      = x3 (ix4 b i f (0 : Fin 1)) :=
  concatenate_apply_piece (t := P4) 3 [⟨P1, x0⟩, ⟨P1, x1⟩, ⟨P1, x2⟩, ⟨P1, x3⟩] h (ix4 b i f (⟨3, by decide⟩ : Fin 4))
    3 (by simp) P1 x3 rfl rfl 3 (by rfl) (ix4 b i f (0 : Fin 1))
    (fun c hc => piece_coords b i f _ c rfl hc) rfl

end Cert.GraphConv.Ref
-- ==== Proof.RefE.lean ====
/-
  The reference program read stage by stage, part five: the four Chebyshev orders stacked on a new last axis and
  flattened to 512 columns (column d holds order d mod 4 of feature d div 4), the projection, and the result.
-/
import proofs.«113123_j64510408786278_2_alg».proof.Proof.RefD
import proofs.«113123_j64510408786278_2_alg».proof.Proof.RefE0

noncomputable section

namespace Cert.GraphConv.Ref

open Idealize.ShloMosaic Idealize.ShloMosaic.ValueIdx Cert.ReferenceIdeal Cert.ReferenceIdeal.Read Cert.GraphConv

variable (X : (⟨3, ![256, 256, 128]⟩ : Shape).Idx → EReal) (Lap : (⟨3, ![256, 256, 256]⟩ : Shape).Idx → EReal)
  (Cnt : (⟨1, ![256]⟩ : Shape).Idx → BitVec 32) (Met : (⟨2, ![128, 128]⟩ : Shape).Idx → EReal)
  (Wt : (⟨2, ![512, 256]⟩ : Shape).Idx → EReal) (Bias : (⟨1, ![256]⟩ : Shape).Idx → EReal)

/-- The stacked orders: last coordinate `k` holds order `k`. -/
theorem v88_eq (b i : Fin 256) (f : Fin 128) (k : Fin 4) :
    val_main_v88 (F := Ideal) X Lap Cnt Met (ix4 b i f k) = cheb X Lap Cnt Met b i k f := by
  have e84 : idx_main_v84 (ix4 b i f (0 : Fin 1)) = ix3 b i f :=
    funext fun a => Fin.ext (by match a with | ⟨0, _⟩ => rfl | ⟨1, _⟩ => rfl | ⟨2, _⟩ => rfl)
  have e85 : idx_main_v85 (ix4 b i f (0 : Fin 1)) = ix3 b i f :=
    funext fun a => Fin.ext (by match a with | ⟨0, _⟩ => rfl | ⟨1, _⟩ => rfl | ⟨2, _⟩ => rfl)
  have e86 : idx_main_v86 (ix4 b i f (0 : Fin 1)) = ix3 b i f :=
    funext fun a => Fin.ext (by match a with | ⟨0, _⟩ => rfl | ⟨1, _⟩ => rfl | ⟨2, _⟩ => rfl)
  have e87 : idx_main_v87 (ix4 b i f (0 : Fin 1)) = ix3 b i f :=
    funext fun a => Fin.ext (by match a with | ⟨0, _⟩ => rfl | ⟨1, _⟩ => rfl | ⟨2, _⟩ => rfl)
  unfold val_main_v88
  match k with
  | ⟨0, _⟩ =>
    refine (concat4_0 _ _ _ _ _ b i f).trans ?_
    rw [val_main_v84_apply, e84, v9_eq]; rfl
  | ⟨1, _⟩ =>
    refine (concat4_1 _ _ _ _ _ b i f).trans ?_
    rw [val_main_v85_apply, e85, v75_eq]; rfl
  | ⟨2, _⟩ =>
    refine (concat4_2 _ _ _ _ _ b i f).trans ?_
    rw [val_main_v86_apply, e86, v79_eq]; rfl
  | ⟨3, _⟩ =>
    refine (concat4_3 _ _ _ _ _ b i f).trans ?_
    rw [val_main_v87_apply, e87, v83_eq]; rfl

/-- The flattened stack: column `d` is order `d mod 4` of feature `d div 4`. -/
theorem v89_eq (b i : Fin 256) (d : Fin 512) :
    val_main_v89 (F := Ideal) X Lap Cnt Met (ix3 b i d)
      = cheb X Lap Cnt Met b i ⟨d.val % 4, Nat.mod_lt _ (by decide)⟩ ⟨d.val / 4, by have := d.isLt; omega⟩ := by
  rw [val_main_v89_apply]
  have e : idx_main_v89 (ix3 b i d)
      = ix4 b i (⟨d.val / 4, by have := d.isLt; omega⟩ : Fin 128) (⟨d.val % 4, Nat.mod_lt _ (by decide)⟩ : Fin 4) :=
    funext fun a => Fin.ext (by
      have hb := b.isLt; have hi := i.isLt; have hd := d.isLt
      match a with
      | ⟨0, _⟩ => show ((b.val * 256 + i.val) * 512 + d.val) / 131072 = b.val; omega
      | ⟨1, _⟩ => show ((b.val * 256 + i.val) * 512 + d.val) / 512 % 256 = i.val; omega
      | ⟨2, _⟩ => show ((b.val * 256 + i.val) * 512 + d.val) / 4 % 128 = d.val / 4; omega
      | ⟨3, _⟩ => show ((b.val * 256 + i.val) * 512 + d.val) % 4 = d.val % 4; omega)
  rw [e, v88_eq]

/-- The projection. -/
theorem v90_eq (b i o : Fin 256) :
    val_main_v90 (F := Ideal) X Lap Cnt Met Wt (ix3 b i o) = proj X Lap Cnt Met Wt b i o := by
  rw [val_main_v90_apply]
  unfold proj
  refine Finset.sum_congr rfl fun k _ => ?_
  have e1 : lidx_main_v90 (ix3 b i o) k = ix3 b i k :=
    funext fun a => Fin.ext (by match a with | ⟨0, _⟩ => rfl | ⟨1, _⟩ => rfl | ⟨2, _⟩ => rfl)
  have e2 : ridx_main_v90 (ix3 b i o) k = ix2 k o :=
    funext fun a => Fin.ext (by match a with | ⟨0, _⟩ => rfl | ⟨1, _⟩ => rfl)
  rw [e1, e2, v89_eq]

/-- The first result. -/
theorem v97_eq (b i o : Fin 256) :
    val_main_v97 (F := Ideal) X Lap Cnt Met Wt Bias (ix3 b i o) = out X Lap Cnt Met Wt Bias b i o := by
  rw [val_main_v97_apply, val_main_v96_apply, val_main_v93_apply, v90_eq, val_main_v92_apply, val_main_v91_apply,
    val_main_v95_apply, val_main_v94_apply, val_main_call2_v0_apply, val_main_call2_cst_apply]
  have e1 : idx_main_v91 (idx_main_v92 (ix3 b i o)) = ix1 o :=
    funext fun a => Fin.ext (by match a with | ⟨0, _⟩ => rfl)
  have e2 : idx_main_v94 (idx_main_v95 (ix3 b i o)) = ix2 b i :=
    funext fun a => Fin.ext (by match a with | ⟨0, _⟩ => rfl | ⟨1, _⟩ => rfl)
  rw [e1, e2, v6_eq]
  rfl

/-- The reference's first result is the specification's `out`. -/
theorem ref_out (b i o : Fin 256) :
    Cert.ReferenceIdeal.Read.val_main_v97 (F := Ideal) X Lap Cnt Met Wt Bias (ix3 b i o)
      = Cert.GraphConv.out X Lap Cnt Met Wt Bias b i o :=
  v97_eq X Lap Cnt Met Wt Bias b i o

end Cert.GraphConv.Ref

end
-- ==== Proof.lean ====
/-
  A spectral graph convolution over 256 molecules of at most 256 atoms, the kernel against its reference.

  For each molecule the layer masks the padding atoms, sends the atom features through a learned metric, turns the
  pairwise distances into an affinity exp(−distance) on the pairs of distinct real atoms, normalises it by the inverse
  square roots of the degrees into a Laplacian δ·mask − D^(−1/2) W D^(−1/2), adds the given Laplacian on the valid
  pairs, runs three steps of the Chebyshev recurrence c₀ = x, c₁ = L c₀, cₖ = 2 L cₖ₋₁ − cₖ₋₂, and projects the four
  orders with one weight matrix, adding a bias, masking and clamping at zero. The two results are that output and the
  learned Laplacian; Proof/Spec.lean states both as functions `out` and `lapl` of the argument arrays, entry by entry.

  Over the extended reals both programs compute exactly those functions. The kernel handles four molecules per grid
  point and lays the work out differently from the reference in four places, each joined by one law of
  Proof/Algebra.lean, none of which needs the inputs finite:
    * the degree is a row sum of the affinity in the kernel and a column sum in the reference — equal because the
      affinity is symmetric, which needs only that + and · commute;
    * the kernel takes the reciprocal square root of the degree, the reference divides 1 by its square root — equal on
      the nonnegative extended reals, and the degree is a sum of products of nonnegative factors plus a nonnegative
      literal (below zero the two would differ, so the sign is what carries this step);
    * the kernel negates a square root as 0 − √·, the reference as −√·, and the reference's sums start from a zero;
    * the kernel concatenates the four orders order-major and multiplies by the weight matrix with its rows regrouped,
      the reference stacks them feature-major and multiplies by the weight matrix as given — the same 512-term sum in
      another order.
  The kernel's side is Proof/KernelArrays.lean (its run with each result array at the specification), over the
  block-level Proof/Block*.lean and Proof/RegionInputs.lean; the reference's side is Proof/Ref*.lean. The three frames
  are the programs' runs with the results dropped; the idealization changed no operation, so `preserves` is trivial.
-/
import proofs.«113123_j64510408786278_2_alg».proof.Defs
import proofs.«113123_j64510408786278_2_alg».proof.Proof.Gen.Kernel
import proofs.«113123_j64510408786278_2_alg».proof.Proof.Gen.Kernel.Frame
import proofs.«113123_j64510408786278_2_alg».proof.Proof.Gen.KernelIdeal
import proofs.«113123_j64510408786278_2_alg».proof.Proof.Gen.KernelIdeal.Frame
import proofs.«113123_j64510408786278_2_alg».proof.Proof.Gen.ReferenceIdeal
import proofs.«113123_j64510408786278_2_alg».proof.Proof.Gen.Pre_finite_inputs
import proofs.«113123_j64510408786278_2_alg».proof.Proof.KernelArrays
import proofs.«113123_j64510408786278_2_alg».proof.Proof.RefRead
import proofs.«113123_j64510408786278_2_alg».proof.Proof.RefC
import proofs.«113123_j64510408786278_2_alg».proof.Proof.RefE
import Idealize.ShloMosaic.Adequacy
import Idealize.ShloMosaic.Init

noncomputable section

namespace Cert.Proof

open Idealize.ShloMosaic Idealize.ShloMosaic.ValueIdx Idealize.SL.Sem

/-- The word-level kernel runs, faults nowhere and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments both idealized programs end with the specification's two arrays. -/
theorem algebraic : Cert.algebraic_KernelIdeal_ReferenceIdeal := by
  intro m ρ m' ρ' _ hagree
  refine ⟨fun c => Cert.GraphConv.Whole.outArr m c, fun c => Cert.GraphConv.Whole.laplArr m c,
    Cert.GraphConv.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5⟩ := hagree c
    rw [Cert.ReferenceIdeal.Read.val_main_v97_eq, a0, a1, a2, a3, a4, a5]
    funext i
    obtain ⟨b, p, q, rfl⟩ : ∃ (b p q : Fin 256), i = ix3 b p q := ⟨i 0, i 1, i 2, eq_ix3 i⟩
    exact Cert.GraphConv.Ref.ref_out _ _ _ _ _ _ b p q
  · obtain ⟨a0, a1, a2, a3, a4, a5⟩ := hagree c
    rw [Cert.ReferenceIdeal.Read.val_main_v67_eq, a0, a2, a3]
    funext i
    obtain ⟨b, p, q, rfl⟩ : ∃ (b p q : Fin 256), i = ix3 b p q := ⟨i 0, i 1, i 2, eq_ix3 i⟩
    exact Cert.GraphConv.Ref.ref_lapl _ _ _ b p q

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
